-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x4096x4096 : Shape := ⟨3, ![3, 4096, 4096]⟩
abbrev S4096x3x128 : Shape := ⟨3, ![4096, 3, 128]⟩
abbrev S3x128x128 : Shape := ⟨3, ![3, 128, 128]⟩
abbrev S3x128 : Shape := ⟨2, ![3, 128]⟩
abbrev S_ : Shape := ⟨0, ![]⟩

class Facts : Prop where
  bcast_S_S3x4096x4096 : S_.BroadcastsInDim S3x4096x4096 (![] : Fin 0 → Fin S3x4096x4096.rank)
  reducesTo_S3x4096x4096_S_d0_1_2 : S3x4096x4096.ReducesTo [0, 1, 2] S_
  h_S_ : 0 < S_.numel
  bcast_S_S4096x3x128 : S_.BroadcastsInDim S4096x3x128 (![] : Fin 0 → Fin S4096x3x128.rank)
  reducesTo_S4096x3x128_S_d0_1_2 : S4096x3x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S3x4096x4096 .f32) (main_arg1 : FVec F S4096x3x128 .f32) (main_arg2 : FVec F S3x128x128 .f32) (main_arg3 : FVec F S3x128 .f32) : IVec S_ 1 :=
  let main_v0 : FVec F S3x4096x4096 .f32 := Host.absf main_arg0
  let main_cst : FVec F S_ .f32 := constant S_ .f32 0x7F800000#32
  let main_v1 : FVec F S3x4096x4096 .f32 := broadcastInDim S3x4096x4096 ![] bcast_S_S3x4096x4096 main_cst
  let main_v2 : IVec S3x4096x4096 1 := cmpf .olt main_v0 main_v1
  let main_c : IVec S_ 1 := constantI S_ 1 1#1
  let main_v3 : IVec S_ 1 := (fun x v => Host.reduce IntOp.andi x v reducesTo_S3x4096x4096_S_d0_1_2 h_S_) main_v2 main_c
  let main_v4 : FVec F S4096x3x128 .f32 := Host.absf main_arg1
  let main_cst_0 : FVec F S_ .f32 := constant S_ .f32 0x7F800000#32
  let main_v5 : FVec F S4096x3x128 .f32 := broadcastInDim S4096x3x128 ![] bcast_S_S4096x3x128 main_cst_0
  let main_v6 : IVec S4096x3x128 1 := cmpf .olt main_v4 main_v5
  let main_c_1 : IVec S_ 1 := constantI S_ 1 1#1
  let main_v7 : IVec S_ 1 := (fun x v => Host.reduce IntOp.andi x v reducesTo_S4096x3x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S3x4096x4096 : Shape := ⟨3, ![3, 4096, 4096]⟩
abbrev S4096x3x128 : Shape := ⟨3, ![4096, 3, 128]⟩
abbrev S3x128x128 : Shape := ⟨3, ![3, 128, 128]⟩
abbrev S3x128 : Shape := ⟨2, ![3, 128]⟩
abbrev S4096x128 : Shape := ⟨2, ![4096, 128]⟩
abbrev S1x512x4096 : Shape := ⟨3, ![1, 512, 4096]⟩
abbrev S512x128 : Shape := ⟨2, ![512, 128]⟩
abbrev S3x4096x128 : Shape := ⟨3, ![3, 4096, 128]⟩
abbrev S4096x1x128 : Shape := ⟨3, ![4096, 1, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x4096x128 : Shape := ⟨3, ![1, 4096, 128]⟩
abbrev S512x4096 : Shape := ⟨2, ![512, 4096]⟩

abbrev nBuf : Space → Nat
  | .hbm => 5
  | .vmem => 8
  | .smem => 0
  | _ => 0

abbrev bufTy : (tb : Table) → Fin (tcTables nBuf tb) → BufTy
  | .hbm, ⟨0, _⟩ => ⟨S3x4096x4096, .f32⟩
  | .hbm, ⟨1, _⟩ => ⟨S4096x3x128, .f32⟩
  | .hbm, ⟨2, _⟩ => ⟨S3x128x128, .f32⟩
  | .hbm, ⟨3, _⟩ => ⟨S3x128, .f32⟩
  | .hbm, ⟨4, _⟩ => ⟨S4096x128, .f32⟩
  | .local _ .vmem, ⟨0, _⟩ => ⟨S1x512x4096, .f32⟩
  | .local _ .vmem, ⟨1, _⟩ => ⟨S1x512x4096, .f32⟩
  | .local _ .vmem, ⟨2, _⟩ => ⟨S4096x3x128, .f32⟩
  | .local _ .vmem, ⟨3, _⟩ => ⟨S3x128x128, .f32⟩
  | .local _ .vmem, ⟨4, _⟩ => ⟨S3x128, .f32⟩
  | .local _ .vmem, ⟨5, _⟩ => ⟨S512x128, .f32⟩
  | .local _ .vmem, ⟨6, _⟩ => ⟨S512x128, .f32⟩
  | .local _ .vmem, ⟨7, _⟩ => ⟨S3x4096x128, .f32⟩
  | _, _ => ⟨S3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_11 : Index := 0#32
  let arg1 : BitVec 32 := BitVec.ofNat 32 (i 1).val
  let v19 : Index := Scalar.indexCast arg1
  let c0_12 : Index := 0#32
  ![0, v19.toNat, 0]
def k0_off2 (i : grid0.Coords) : Fin 3 → Nat :=
  let arg1 : BitVec 32 := BitVec.ofNat 32 (i 1).val
  let v22 : Index := Scalar.indexCast arg1
  let c0_13 : Index := 0#32
  let c0_14 : Index := 0#32
  ![v22.toNat, 0, 0]
def k0_off3 (i : grid0.Coords) : Fin 2 → Nat :=
  let arg1 : BitVec 32 := BitVec.ofNat 32 (i 1).val
  let v26 : Index := Scalar.indexCast arg1
  let c0_16 : Index := 0#32
  ![v26.toNat, 0]
def k0_off4 (i : grid0.Coords) : Fin 3 → Nat :=
  let arg1 : BitVec 32 := BitVec.ofNat 32 (i 1).val
  let v32 : Index := Scalar.indexCast arg1
  let c0_17 : Index := 0#32
  let c0_18 : Index := 0#32
  ![v32.toNat, 0, 0]
def k0_off5 (i : grid0.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def k0_cond2 (i : grid0.Coords) : BitVec 1 :=
  let arg1 : BitVec 32 := BitVec.ofNat 32 (i 1).val
  let c0_i32_7 : BitVec 32 := 0#32
  let v13 : BitVec 1 := Scalar.cmpi .eq arg1 c0_i32_7
  let v14 : BitVec 32 := Scalar.extui v13
  let c0_i32_8 : BitVec 32 := 0#32
  let v15 : BitVec 1 := Scalar.cmpi .ne v14 c0_i32_8
  v15

def k0_cond3 (i : grid0.Coords) : BitVec 1 :=
  let arg1 : BitVec 32 := BitVec.ofNat 32 (i 1).val
  let c0_i32_9 : BitVec 32 := 0#32
  let v16 : BitVec 1 := Scalar.cmpi .ne arg1 c0_i32_9
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  h_S4096x1x128 : 0 < S4096x1x128.numel
  shapeCasts_S4096x1x128_S4096x128 : S4096x1x128.ShapeCasts S4096x128
  h_S1x128x128 : 0 < S1x128x128.numel
  shapeCasts_S1x128x128_S128x128 : S1x128x128.ShapeCasts S128x128
  h_S1x128 : 0 < S1x128.numel
  shapeCasts_S1x128_S128 : S1x128.ShapeCasts S128
  shapeCasts_S128_S1x128 : S128.ShapeCasts S1x128
  broadcasts_S1x128_S4096x128 : S1x128.Broadcasts S4096x128
  h_S1x4096x128 : 0 < S1x4096x128.numel
  shapeCasts_S1x4096x128_S4096x128 : S1x4096x128.ShapeCasts S4096x128
  shapeCasts_S4096x128_S1x4096x128 : S4096x128.ShapeCasts S1x4096x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h1 : k0_cond1 i = 1#1), ∀ a, (k0_off1 i) a + S4096x1x128.size a ≤ S4096x3x128.size a
  k0_off2_inb : ∀ i : grid0.Coords, ∀ (k0_h1 : k0_cond1 i = 1#1), ∀ a, (k0_off2 i) a + S1x128x128.size a ≤ S3x128x128.size a
  k0_off3_inb : ∀ i : grid0.Coords, ∀ (k0_h1 : k0_cond1 i = 1#1), ∀ a, (k0_off3 i) a + S1x128.size a ≤ S3x128.size a
  k0_off4_inb : ∀ i : grid0.Coords, ∀ (k0_h1 : k0_cond1 i = 1#1), ∀ a, (k0_off4 i) a + S1x4096x128.size a ≤ S3x4096x128.size a
  k0_off5_inb : ∀ i : grid0.Coords, ∀ a, (k0_off5 i) a + S1x4096x128.size a ≤ S3x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S3x4096x4096.size a
  hwx0_0 : ∀ i : grid0.Coords, EltTy.bits .f32 = 32 ∨ (Rect.block (s := S3x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x3x128.size a ≤ S4096x3x128.size a
  hwx0_1 : ∀ i : grid0.Coords, EltTy.bits .f32 = 32 ∨ (Rect.block (s := S4096x3x128) S4096x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S3x4096x4096 : Shape := ⟨3, ![3, 4096, 4096]⟩
abbrev S4096x3x128 : Shape := ⟨3, ![4096, 3, 128]⟩
abbrev S3x128x128 : Shape := ⟨3, ![3, 128, 128]⟩
abbrev S3x128 : Shape := ⟨2, ![3, 128]⟩
abbrev S4096x1x128 : Shape := ⟨3, ![4096, 1, 128]⟩
abbrev S4096x128 : Shape := ⟨2, ![4096, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S3x4096x4096, .f32⟩
  | .hbm, ⟨1, _⟩ => ⟨S4096x3x128, .f32⟩
  | .hbm, ⟨2, _⟩ => ⟨S3x128x128, .f32⟩
  | .hbm, ⟨3, _⟩ => ⟨S3x128, .f32⟩
  | .hbm, ⟨4, _⟩ => ⟨S4096x1x128, .f32⟩
  | .hbm, ⟨5, _⟩ => ⟨S4096x128, .f32⟩
  | .hbm, ⟨6, _⟩ => ⟨S1x128x128, .f32⟩
  | .hbm, ⟨7, _⟩ => ⟨S128x128, .f32⟩
  | .hbm, ⟨8, _⟩ => ⟨S4096x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S1x4096x4096, .f32⟩
  | .hbm, ⟨15, _⟩ => ⟨S4096x4096, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S4096x1x128, .f32⟩
  | .hbm, ⟨21, _⟩ => ⟨S4096x128, .f32⟩
  | .hbm, ⟨22, _⟩ => ⟨S1x128x128, .f32⟩
  | .hbm, ⟨23, _⟩ => ⟨S128x128, .f32⟩
  | .hbm, ⟨24, _⟩ => ⟨S4096x128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S1x4096x4096, .f32⟩
  | .hbm, ⟨31, _⟩ => ⟨S4096x4096, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x1x128, .f32⟩
  | .hbm, ⟨37, _⟩ => ⟨S4096x128, .f32⟩
  | .hbm, ⟨38, _⟩ => ⟨S1x128x128, .f32⟩
  | .hbm, ⟨39, _⟩ => ⟨S128x128, .f32⟩
  | .hbm, ⟨40, _⟩ => ⟨S4096x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S4096x128, .f32⟩
  | .hbm, ⟨45, _⟩ => ⟨S4096x128, .f32⟩
  | .hbm, ⟨46, _⟩ => ⟨S1x4096x4096, .f32⟩
  | .hbm, ⟨47, _⟩ => ⟨S4096x4096, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S4096x1x128, .f32⟩
  | .hbm, ⟨53, _⟩ => ⟨S4096x1x128, .f32⟩
  | .hbm, ⟨54, _⟩ => ⟨S4096x1x128, .f32⟩
  | .hbm, ⟨55, _⟩ => ⟨S4096x3x128, .f32⟩
  | .hbm, ⟨56, _⟩ => ⟨S_, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .f32⟩
  | _, _ => ⟨S3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_cst : Ref sig .tc := ⟨.hbm, 33, rfl⟩
abbrev main_call1_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call2_cst : Ref sig .tc := ⟨.hbm, 49, rfl⟩
abbrev main_call2_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  slices_S4096x3x128_S4096x1x128_0_0_0 : S4096x3x128.Slices ![0, 0, 0] S4096x1x128
  shapeCasts_S4096x1x128_S4096x128 : S4096x1x128.ShapeCasts S4096x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  slices_S3x4096x4096_S1x4096x4096_0_0_0 : S3x4096x4096.Slices ![0, 0, 0] S1x4096x4096
  shapeCasts_S1x4096x4096_S4096x4096 : S1x4096x4096.ShapeCasts S4096x4096
  bcast_S_S4096x128 : S_.BroadcastsInDim S4096x128 (![] : Fin 0 → Fin S4096x128.rank)
  slices_S4096x3x128_S4096x1x128_0_1_0 : S4096x3x128.Slices ![0, 1, 0] S4096x1x128
  slices_S3x128x128_S1x128x128_1_0_0 : S3x128x128.Slices ![1, 0, 0] S1x128x128
  slices_S3x128_S1x128_1_0 : S3x128.Slices ![1, 0] S1x128
  slices_S3x4096x4096_S1x4096x4096_1_0_0 : S3x4096x4096.Slices ![1, 0, 0] S1x4096x4096
  slices_S4096x3x128_S4096x1x128_0_2_0 : S4096x3x128.Slices ![0, 2, 0] S4096x1x128
  slices_S3x128x128_S1x128x128_2_0_0 : S3x128x128.Slices ![2, 0, 0] S1x128x128
  slices_S3x128_S1x128_2_0 : S3x128.Slices ![2, 0] S1x128
  slices_S3x4096x4096_S1x4096x4096_2_0_0 : S3x4096x4096.Slices ![2, 0, 0] S1x4096x4096
  bcast_S4096x128_S4096x1x128_0_2 : S4096x128.BroadcastsInDim S4096x1x128 (![0, 2] : Fin 2 → Fin S4096x1x128.rank)
  concatenates_S4096x1x128_S4096x1x128_S4096x1x128_S4096x3x128_d1 : Shape.Concatenates [S4096x1x128, S4096x1x128, S4096x1x128] S4096x3x128 1
  reducesTo_S4096x3x128_S4096x128_d1 : S4096x3x128.ReducesTo [1] S4096x128
  h_S_ : 0 < S_.numel
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.GcnBitsGrid.lean ====
/-
  The grid of the graph-convolution kernel, point by point.

  The 24 points are (row block r, edge type t) with t innermost: point n is r = n / 3, t = n % 3.
  The body branches three times: the dense layer of type t is computed only in the first row block
  (r = 0, the points n < 3); the output block is initialised at t = 0 and added to at t = 1, 2. Here each
  branch condition and each offset the body computes is decided over the 24 points, once.
-/
import proofs.«142835_g51436528337343_cont_8to1c4_445_16_alg».proof.Proof.Gen.Kernel.Frame
import proofs.«142835_g51436528337343_cont_8to1c4_445_16_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The dense layer is computed exactly at the first three points (row block 0). -/
theorem first_rows_iff : ∀ t : Fin cfg0.N, k0_cond1 (grid0.coords t) = 1#1 ↔ t.val < 3 :=
  (by decide +kernel : ∀ t : Fin grid0.N, k0_cond1 (grid0.coords t) = 1#1 ↔ t.val < 3)

/-- The output block is initialised exactly at edge type 0. -/
theorem init_iff : ∀ t : Fin cfg0.N, k0_cond2 (grid0.coords t) = 1#1 ↔ t.val % 3 = 0 :=
  (by decide +kernel : ∀ t : Fin grid0.N, k0_cond2 (grid0.coords t) = 1#1 ↔ t.val % 3 = 0)

/-- The output block is added to exactly at edge types 1 and 2. -/
theorem accum_iff : ∀ t : Fin cfg0.N, k0_cond3 (grid0.coords t) = 1#1 ↔ t.val % 3 ≠ 0 :=
  (by decide +kernel : ∀ t : Fin grid0.N, k0_cond3 (grid0.coords t) = 1#1 ↔ t.val % 3 ≠ 0)

/-! ## The offsets the body computes: the edge type selects the slab -/

theorem feat_off : ∀ t : Fin cfg0.N, k0_off1 (grid0.coords t) = ![0, t.val % 3, 0] :=
  (by decide +kernel : ∀ t : Fin grid0.N, k0_off1 (grid0.coords t) = ![0, t.val % 3, 0])
theorem weight_off : ∀ t : Fin cfg0.N, k0_off2 (grid0.coords t) = ![t.val % 3, 0, 0] :=
  (by decide +kernel : ∀ t : Fin grid0.N, k0_off2 (grid0.coords t) = ![t.val % 3, 0, 0])
theorem bias_off : ∀ t : Fin cfg0.N, k0_off3 (grid0.coords t) = ![t.val % 3, 0] :=
  (by decide +kernel : ∀ t : Fin grid0.N, k0_off3 (grid0.coords t) = ![t.val % 3, 0])
theorem store_off : ∀ t : Fin cfg0.N, k0_off4 (grid0.coords t) = ![t.val % 3, 0, 0] :=
  (by decide +kernel : ∀ t : Fin grid0.N, k0_off4 (grid0.coords t) = ![t.val % 3, 0, 0])
theorem load_off : ∀ t : Fin cfg0.N, k0_off5 (grid0.coords t) = ![t.val % 3, 0, 0] :=
  (by decide +kernel : ∀ t : Fin grid0.N, k0_off5 (grid0.coords t) = ![t.val % 3, 0, 0])

/-! ## Where the windows are live, and when the output block is written back -/

/-- The output window is stored into at every point: initialised or added to. -/
theorem out_live : ∀ t : Fin cfg0.N, cfg0.idle 4 (grid0.coords t) = false := by decide +kernel

/-- The adjacency window's block index: (edge type, row block, 0). -/
theorem adj_index : ∀ t : Fin cfg0.N, cc0_transform_0 (grid0.coords t) = ![t.val % 3, t.val / 3, 0] :=
  (by decide +kernel : ∀ t : Fin grid0.N, cc0_transform_0 (grid0.coords t) = ![t.val % 3, t.val / 3, 0])
/-- The output window's block index: (row block, 0). -/
theorem out_index : ∀ t : Fin cfg0.N, cc0_transform_4 (grid0.coords t) = ![t.val / 3, 0] :=
  (by decide +kernel : ∀ t : Fin grid0.N, cc0_transform_4 (grid0.coords t) = ![t.val / 3, 0])

/-! ## The memrefs the body is called with -/

abbrev adjM (t : Fin cfg0.N) : Memref sig .tc .vmem S1x512x4096 .f32 := win0_0.stage (cfg0.slots t 0)
abbrev adjW (t : Fin cfg0.N) : (adjM t).IsWhole := hstage0_0 ((cfg0.slots t 0).cast nbuf0_0)
abbrev featM (t : Fin cfg0.N) : Memref sig .tc .vmem S4096x3x128 .f32 := win0_1.stage (cfg0.slots t 1)
abbrev featW (t : Fin cfg0.N) : (featM t).IsWhole := hstage0_1 ((cfg0.slots t 1).cast nbuf0_1)
abbrev weightM (t : Fin cfg0.N) : Memref sig .tc .vmem S3x128x128 .f32 := win0_2.stage (cfg0.slots t 2)
abbrev weightW (t : Fin cfg0.N) : (weightM t).IsWhole := hstage0_2 ((cfg0.slots t 2).cast nbuf0_2)
abbrev biasM (t : Fin cfg0.N) : Memref sig .tc .vmem S3x128 .f32 := win0_3.stage (cfg0.slots t 3)
abbrev biasW (t : Fin cfg0.N) : (biasM t).IsWhole := hstage0_3 ((cfg0.slots t 3).cast nbuf0_3)
abbrev outM (t : Fin cfg0.N) : Memref sig .tc .vmem S512x128 .f32 := win0_4.stage (cfg0.slots t 4)
abbrev outW (t : Fin cfg0.N) : (outM t).IsWhole := hstage0_4 ((cfg0.slots t 4).cast nbuf0_4)
/-- The scratch holding the three dense layers, kept from the first row block to the last. -/
abbrev supM : Memref sig .tc .vmem S3x4096x128 .f32 := Memref.whole cc0_scratch0

/-- The launch's invariant with the scratch as a memref owned at some contents. -/
theorem scratch_any (c : Dev nD) :
    (Pipeline.ΦA spec0 c : sProp 𝕄)
      = iprop(iprop((∃ d, owns (c : Thread nD τ) supM fullShare d)) ∗ (∃ r, prngReg c r)) := by
  unfold Pipeline.ΦA; rw [scopedRest0_eq]; simp only [supM, owns_whole]; try rfl

end Cert.Kernel.Body

end
-- ==== Proof.GcnBitsStep.lean ====
/-
  The kernel body run once, in each of the four ways the grid meets it.

  The body is called with the adjacency block, the whole feature, weight and bias arrays, the output block's
  buffer and the scratch that keeps the three dense layers. In the first row block it first computes the dense
  layer of its edge type and stores it as one slab of the scratch; at every point it then loads that slab back,
  multiplies the adjacency block into it, rectifies and scales, and either initialises the output block (edge
  type 0) or adds to it (edge types 1, 2). Each run ends with the inputs untouched, the output buffer rewritten
  by the pieces the run found, and the scratch at its former contents rewritten by the pieces stored into it.
-/
import proofs.«142835_g51436528337343_cont_8to1c4_445_16_alg».proof.Proof.GcnBitsGrid
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First row block, edge type 0: the dense layer is stored, the output block initialised. -/
noncomputable def stepFirstInit (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : k0_cond1 i = 1#1) (h2 : k0_cond2 i = 1#1) (h3 : ¬ k0_cond3 i = 1#1) (x0 : Vec F S1x512x4096 .f32) (x1 : Vec F S4096x3x128 .f32) (x2 : Vec F S3x128x128 .f32) (x3 : Vec F S3x128 .f32) (xs : Vec F S3x4096x128 .f32) :
    Σ' (LO : List (View.Piece (Elt F) S512x128 .f32)), { LS : List (View.Piece (Elt F) S3x4096x128 .f32) //
      ∀ (xo : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexact HS

set_option maxHeartbeats 1000000 in
/-- First row block, edge type 1 or 2: the dense layer is stored, the output block (found at `xo`) added to. -/
noncomputable def stepFirstAccum (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : k0_cond1 i = 1#1) (h2 : ¬ k0_cond2 i = 1#1) (h3 : k0_cond3 i = 1#1) (x0 : Vec F S1x512x4096 .f32) (x1 : Vec F S4096x3x128 .f32) (x2 : Vec F S3x128x128 .f32) (x3 : Vec F S3x128 .f32) (xs : Vec F S3x4096x128 .f32) (xo : Vec F S512x128 .f32) :
    Σ' (LO : List (View.Piece (Elt F) S512x128 .f32)), { LS : List (View.Piece (Elt F) S3x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexact HS

set_option maxHeartbeats 1000000 in
/-- A later row block, edge type 0: the scratch is only read, the output block initialised. -/
noncomputable def stepLaterInit (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : ¬ k0_cond1 i = 1#1) (h2 : k0_cond2 i = 1#1) (h3 : ¬ k0_cond3 i = 1#1) (x0 : Vec F S1x512x4096 .f32) (x1 : Vec F S4096x3x128 .f32) (x2 : Vec F S3x128x128 .f32) (x3 : Vec F S3x128 .f32) (xs : Vec F S3x4096x128 .f32) :
    { LO : List (View.Piece (Elt F) S512x128 .f32) //
      ∀ (xo : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexists _; isplitr; · ipureintro; exact harg7.read_unread _
    iexact HS

set_option maxHeartbeats 1000000 in
/-- A later row block, edge type 1 or 2: the scratch is only read, the output block (found at `xo`) added to. -/
noncomputable def stepLaterAccum (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : ¬ k0_cond1 i = 1#1) (h2 : ¬ k0_cond2 i = 1#1) (h3 : k0_cond3 i = 1#1) (x0 : Vec F S1x512x4096 .f32) (x1 : Vec F S4096x3x128 .f32) (x2 : Vec F S3x128x128 .f32) (x3 : Vec F S3x128 .f32) (xs : Vec F S3x4096x128 .f32) (xo : Vec F S512x128 .f32) :
    { LO : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexists _; isplitr; · ipureintro; exact harg7.read_unread _
    iexact HS

end Cert.Kernel.Body

end
-- ==== Proof.GcnBitsPieces.lean ====
/-
  What the four runs of the body store, in closed form.

  A run in the first row block loads, from the whole feature, weight and bias arrays, the parts of its edge type
  and stores the dense layer computed from them as that edge type's slab of the scratch; every run loads the slab
  of its edge type back (in the first row block: the slab just stored) and stores into the output block either the
  rectified, scaled product with the adjacency block or that plus what the block held.
-/
import proofs.«142835_g51436528337343_cont_8to1c4_445_16_alg».proof.Proof.GcnBitsStep
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The features of the point's edge type: one column of the [4096, 3, 128] array. -/
def featSlab (i : grid0.Coords) (h1 : k0_cond1 i = 1#1) (x1 : Vec F S4096x3x128 .f32) : Vec F S4096x1x128 .f32 :=
  View.ld x1 (Rect.unit (k0_off1 i) S4096x1x128.size (k0_off1_inb i h1))
/-- The weights of the point's edge type. -/
def weightSlab (i : grid0.Coords) (h1 : k0_cond1 i = 1#1) (x2 : Vec F S3x128x128 .f32) : Vec F S1x128x128 .f32 :=
  View.ld x2 (Rect.unit (k0_off2 i) S1x128x128.size (k0_off2_inb i h1))
/-- The bias row of the point's edge type. -/
def biasRow (i : grid0.Coords) (h1 : k0_cond1 i = 1#1) (x3 : Vec F S3x128 .f32) : Vec F S1x128 .f32 :=
  View.ld x3 (Rect.unit (k0_off3 i) S1x128.size (k0_off3_inb i h1))
/-- The dense layer of the point's edge type, from the whole arrays. -/
def denseOf (i : grid0.Coords) (h1 : k0_cond1 i = 1#1) (x1 : Vec F S4096x3x128 .f32) (x2 : Vec F S3x128x128 .f32) (x3 : Vec F S3x128 .f32) :
    Vec F S1x4096x128 .f32 :=
  k0_pay1 (featSlab i h1 x1) (weightSlab i h1 x2) (biasRow i h1 x3)
/-- The slab of the point's edge type, read off the scratch's contents. -/
def supSlab (i : grid0.Coords) (xs : Vec F S3x4096x128 .f32) : Vec F S1x4096x128 .f32 :=
  View.ld xs (Rect.unit (k0_off5 i) S1x4096x128.size (k0_off5_inb i))

/-- The one piece a run in the first row block stores into the scratch: the dense layer, at its edge type's slab. -/
def densePiece (i : grid0.Coords) (h1 : k0_cond1 i = 1#1) (x1 : Vec F S4096x3x128 .f32) (x2 : Vec F S3x128x128 .f32) (x3 : Vec F S3x128 .f32) :
    View.Piece (Elt F) S3x4096x128 .f32 :=
  ⟨Rect.unit (k0_off4 i) S1x4096x128.size (k0_off4_inb i h1), denseOf i h1 x1 x2 x3⟩
/-- A piece that rewrites the whole output block. -/
def outPiece (w : Vec F S512x128 .f32) : View.Piece (Elt F) S512x128 .f32 :=
  ⟨Rect.unit ![0, 0] S512x128.size inb_S512x128_S512x128_0_0, w⟩

/-- Such a piece covers the block, -/
theorem outPiece_cover (w : Vec F S512x128 .f32) (y : S512x128.Idx) : ∃ p ∈ [outPiece w], y ∈ p.1.set :=
  ⟨_, List.mem_singleton_self _, View.mem_set_unit_zero zeros2 inb_S512x128_S512x128_0_0 y⟩
/-- so after it the buffer reads its payload, whatever it held. -/
theorem read_outPiece {κ : Kind} {sp : Space} (v : View sig κ sp S512x128 .f32) (f : v.ty.Contents (Elt F)) (w : Vec F S512x128 .f32) :
    v.read (Elt F) (v.writes (Elt F) f [outPiece w]) = w :=
  (View.read_writes_eq_canon v f _ (outPiece_cover w)).trans (View.canon_unit_zero zeros2 _ w)

variable (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole) (x0 : Vec F S1x512x4096 .f32) (x1 : Vec F S4096x3x128 .f32) (x2 : Vec F S3x128x128 .f32) (x3 : Vec F S3x128 .f32) (xs : Vec F S3x4096x128 .f32)

theorem firstInit_out (h1 : k0_cond1 i = 1#1) (h2 : k0_cond2 i = 1#1) (h3 : ¬ k0_cond3 i = 1#1) :
    (stepFirstInit c i arg2 harg2 arg3 harg3 arg4 harg4 arg5 harg5 arg6 harg6 arg7 harg7 h1 h2 h3 x0 x1 x2 x3 xs).1 = [outPiece (k0_pay2 x0 (denseOf i h1 x1 x2 x3))] := by
  unfold stepFirstInit; dsimp only; sl_unfold_words
  simp only [View.readAt_eq_ld, Memref.IsWhole.read_unread, View.ld_unit_zero (S := S1x512x4096) zeros3]
  exact congrArg (fun z => [outPiece (k0_pay2 x0 z)]) (View.readCov_cons_toLoadRect _ _ _ _)

theorem firstInit_sup (h1 : k0_cond1 i = 1#1) (h2 : k0_cond2 i = 1#1) (h3 : ¬ k0_cond3 i = 1#1) :
    (stepFirstInit c i arg2 harg2 arg3 harg3 arg4 harg4 arg5 harg5 arg6 harg6 arg7 harg7 h1 h2 h3 x0 x1 x2 x3 xs).2.1 = [densePiece i h1 x1 x2 x3] := by
  unfold stepFirstInit; dsimp only; sl_unfold_words
  simp only [View.readAt_eq_ld, Memref.IsWhole.read_unread]
  rfl

theorem firstAccum_out (h1 : k0_cond1 i = 1#1) (h2 : ¬ k0_cond2 i = 1#1) (h3 : k0_cond3 i = 1#1) (xo : Vec F S512x128 .f32) :
    (stepFirstAccum c i arg2 harg2 arg3 harg3 arg4 harg4 arg5 harg5 arg6 harg6 arg7 harg7 h1 h2 h3 x0 x1 x2 x3 xs xo).1 = [outPiece (k0_pay3 x0 (denseOf i h1 x1 x2 x3) xo)] := by
  unfold stepFirstAccum; dsimp only; sl_unfold_words
  simp only [View.readAt_eq_ld, Memref.IsWhole.read_unread, View.ld_unit_zero (S := S1x512x4096) zeros3, View.ld_unit_zero (S := S512x128) zeros2]
  exact congrArg (fun z => [outPiece (k0_pay3 x0 z xo)]) (View.readCov_cons_toLoadRect _ _ _ _)

theorem firstAccum_sup (h1 : k0_cond1 i = 1#1) (h2 : ¬ k0_cond2 i = 1#1) (h3 : k0_cond3 i = 1#1) (xo : Vec F S512x128 .f32) :
    (stepFirstAccum c i arg2 harg2 arg3 harg3 arg4 harg4 arg5 harg5 arg6 harg6 arg7 harg7 h1 h2 h3 x0 x1 x2 x3 xs xo).2.1 = [densePiece i h1 x1 x2 x3] := by
  unfold stepFirstAccum; dsimp only; sl_unfold_words
  simp only [View.readAt_eq_ld, Memref.IsWhole.read_unread]
  rfl

theorem laterInit_out (h1 : ¬ k0_cond1 i = 1#1) (h2 : k0_cond2 i = 1#1) (h3 : ¬ k0_cond3 i = 1#1) :
    (stepLaterInit c i arg2 harg2 arg3 harg3 arg4 harg4 arg5 harg5 arg6 harg6 arg7 harg7 h1 h2 h3 x0 x1 x2 x3 xs).1 = [outPiece (k0_pay2 x0 (supSlab i xs))] := by
  unfold stepLaterInit; dsimp only; sl_unfold_words
  simp only [View.readAt_eq_ld, Memref.IsWhole.read_unread, View.ld_unit_zero (S := S1x512x4096) zeros3]
  rfl

theorem laterAccum_out (h1 : ¬ k0_cond1 i = 1#1) (h2 : ¬ k0_cond2 i = 1#1) (h3 : k0_cond3 i = 1#1) (xo : Vec F S512x128 .f32) :
    (stepLaterAccum c i arg2 harg2 arg3 harg3 arg4 harg4 arg5 harg5 arg6 harg6 arg7 harg7 h1 h2 h3 x0 x1 x2 x3 xs xo).1 = [outPiece (k0_pay3 x0 (supSlab i xs) xo)] := by
  unfold stepLaterAccum; dsimp only; sl_unfold_words
  simp only [View.readAt_eq_ld, Memref.IsWhole.read_unread, View.ld_unit_zero (S := S1x512x4096) zeros3, View.ld_unit_zero (S := S512x128) zeros2]
  rfl

/-! ## The four runs with their pieces read back -/

theorem firstInit_triple (h1 : k0_cond1 i = 1#1) (h2 : k0_cond2 i = 1#1) (h3 : ¬ k0_cond3 i = 1#1) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 (denseOf i h1 x1 x2 x3))
            ∗ owns (c : Thread nD τ) arg7 fullShare (arg7.view.read (Elt F) (arg7.view.writes (Elt F) (harg7.unread xs) [densePiece i h1 x1 x2 x3]))) -∗ K ⟨⟩))
      ⊢ wp frame (wpE (defs₀ (F := F)) Variants.none c none) E (cc0__gcn_kernel i arg2 harg2 arg3 harg3 arg4 harg4 arg5 harg5 arg6 harg6 arg7 harg7) K := by
  have h := (stepFirstInit c i arg2 harg2 arg3 harg3 arg4 harg4 arg5 harg5 arg6 harg6 arg7 harg7 h1 h2 h3 x0 x1 x2 x3 xs).2.2 xo E K
  rw [firstInit_sup, firstInit_out] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  unfold owns; iexists _; isplitr
  swap; · iexact HS
  ipureintro; rfl

theorem firstAccum_triple (h1 : k0_cond1 i = 1#1) (h2 : ¬ k0_cond2 i = 1#1) (h3 : k0_cond3 i = 1#1) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x0 (denseOf i h1 x1 x2 x3) xo)
            ∗ owns (c : Thread nD τ) arg7 fullShare (arg7.view.read (Elt F) (arg7.view.writes (Elt F) (harg7.unread xs) [densePiece i h1 x1 x2 x3]))) -∗ K ⟨⟩))
      ⊢ wp frame (wpE (defs₀ (F := F)) Variants.none c none) E (cc0__gcn_kernel i arg2 harg2 arg3 harg3 arg4 harg4 arg5 harg5 arg6 harg6 arg7 harg7) K := by
  have h := (stepFirstAccum c i arg2 harg2 arg3 harg3 arg4 harg4 arg5 harg5 arg6 harg6 arg7 harg7 h1 h2 h3 x0 x1 x2 x3 xs xo).2.2 E K
  rw [firstAccum_sup, firstAccum_out] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  unfold owns; iexists _; isplitr
  swap; · iexact HS
  ipureintro; rfl

theorem laterInit_triple (h1 : ¬ k0_cond1 i = 1#1) (h2 : k0_cond2 i = 1#1) (h3 : ¬ k0_cond3 i = 1#1) (D : Vec F S1x4096x128 .f32) (hD : supSlab i xs = D) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 D)
            ∗ owns (c : Thread nD τ) arg7 fullShare xs) -∗ K ⟨⟩))
      ⊢ wp frame (wpE (defs₀ (F := F)) Variants.none c none) E (cc0__gcn_kernel i arg2 harg2 arg3 harg3 arg4 harg4 arg5 harg5 arg6 harg6 arg7 harg7) K := by
  have h := (stepLaterInit c i arg2 harg2 arg3 harg3 arg4 harg4 arg5 harg5 arg6 harg6 arg7 harg7 h1 h2 h3 x0 x1 x2 x3 xs).2 xo E K
  rw [laterInit_out, hD] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  iexact HS

theorem laterAccum_triple (h1 : ¬ k0_cond1 i = 1#1) (h2 : ¬ k0_cond2 i = 1#1) (h3 : k0_cond3 i = 1#1) (D : Vec F S1x4096x128 .f32) (hD : supSlab i xs = D) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x0 D xo)
            ∗ owns (c : Thread nD τ) arg7 fullShare xs) -∗ K ⟨⟩))
      ⊢ wp frame (wpE (defs₀ (F := F)) Variants.none c none) E (cc0__gcn_kernel i arg2 harg2 arg3 harg3 arg4 harg4 arg5 harg5 arg6 harg6 arg7 harg7) K := by
  have h := (stepLaterAccum c i arg2 harg2 arg3 harg3 arg4 harg4 arg5 harg5 arg6 harg6 arg7 harg7 h1 h2 h3 x0 x1 x2 x3 xs xo).2 E K
  rw [laterAccum_out, hD] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  iexact HS

end Cert.Kernel.Body

end
-- ==== Proof.GcnBitsData.lean ====
/-
  What the scratch and the output block hold after every point, and the proof data stated over it.

  The scratch is entered at unknown contents. The first three points (row block 0, edge types 0, 1, 2) each
  store the dense layer of their edge type into that edge type's slab, so before point n the slabs of the edge
  types below min(n, 3) hold their dense layers; from point 3 on the scratch is only read. The output block of a
  row block is initialised at edge type 0 and added to at edge types 1 and 2; it is written back after edge type 2.
-/
import proofs.«142835_g51436528337343_cont_8to1c4_445_16_alg».proof.Proof.GcnBitsPieces
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three dense layers -/

/-- Point `s` of the first row block: where edge type `s`'s dense layer is computed. -/
def firstPt (s : Fin 3) : Fin cfg0.N := ⟨s.val, by have := s.isLt; show s.val < grid0.N; rw [N_0]; omega⟩

theorem firstPt_first (s : Fin 3) : k0_cond1 (grid0.coords (firstPt s)) = 1#1 := (first_rows_iff (firstPt s)).mpr s.isLt

/-- A point's edge type. -/
def edgeOf (t : Fin cfg0.N) : Fin 3 := ⟨t.val % 3, Nat.mod_lt _ (by omega)⟩

/-- The dense layer of edge type `s`, from the argument arrays as the region finds them. -/
def dense (c : Dev nD) (s : Fin 3) : Vec F S1x4096x128 .f32 :=
  denseOf (grid0.coords (firstPt s)) (firstPt_first s) (iblk m c 1 (firstPt s)) (iblk m c 2 (firstPt s)) (iblk m c 3 (firstPt s))

/-- At a point of the first row block the dense layer the body computes is that of the point's edge type. -/
theorem dense_at (c : Dev nD) (t : Fin cfg0.N) (h : t.val < 3) (h1 : k0_cond1 (grid0.coords t) = 1#1) :
    dense m c (edgeOf t) = denseOf (grid0.coords t) h1 (iblk m c 1 t) (iblk m c 2 t) (iblk m c 3 t) := by
  have e : firstPt (edgeOf t) = t := Fin.ext (Nat.mod_eq_of_lt h)
  have key : ∀ (u : Fin cfg0.N) (hu : k0_cond1 (grid0.coords u) = 1#1), u = t →
      denseOf (grid0.coords u) hu (iblk m c 1 u) (iblk m c 2 u) (iblk m c 3 u)
        = denseOf (grid0.coords t) h1 (iblk m c 1 t) (iblk m c 2 t) (iblk m c 3 t) := by
    intro u hu e; subst e; rfl
  exact key _ _ e

/-- The slab a point reads depends on the point's edge type only. -/
theorem supSlab_congr (u u' : Fin cfg0.N) (h : u.val % 3 = u'.val % 3) (S : Vec F S3x4096x128 .f32) :
    supSlab (grid0.coords u) S = supSlab (grid0.coords u') S := by
  have key : ∀ (off off' : Fin 3 → ℕ) (_ : off = off') (inb : ∀ a, off a + S1x4096x128.size a ≤ S3x4096x128.size a)
      (inb' : ∀ a, off' a + S1x4096x128.size a ≤ S3x4096x128.size a),
      View.ld S (Rect.unit (s := S3x4096x128) off S1x4096x128.size inb) = View.ld S (Rect.unit (s := S3x4096x128) off' S1x4096x128.size inb') := by
    intro off off' e; subst e; intro _ _; rfl
  exact key _ _ (by rw [load_off, load_off, h]) _ _

/-- Before point `n` the slabs of the edge types below `n` hold their dense layers. -/
def Kept (c : Dev nD) (n : ℕ) (S : Vec F S3x4096x128 .f32) : Prop :=
  ∀ s : Fin 3, s.val < n → supSlab (grid0.coords (firstPt s)) S = dense m c s

/-- So a point whose edge type is below `n` reads that edge type's dense layer. -/
theorem supSlab_of_kept (c : Dev nD) (t : Fin cfg0.N) (n : ℕ) (hn : t.val % 3 < n) (S : Vec F S3x4096x128 .f32) (hS : Kept m c n S) :
    supSlab (grid0.coords t) S = dense m c (edgeOf t) :=
  (supSlab_congr t (firstPt (edgeOf t)) (by show t.val % 3 = t.val % 3 % 3; rw [Nat.mod_mod]) S).trans (hS (edgeOf t) hn)

theorem kept_mono (c : Dev nD) {n n' : ℕ} (h : n' ≤ n) (S : Vec F S3x4096x128 .f32) (hS : Kept m c n S) : Kept m c n' S :=
  fun s hs => hS s (lt_of_lt_of_le hs h)

/-- Storing the dense layer of point `t < 3` into its slab keeps the earlier slabs and adds this one. -/
theorem kept_store (c : Dev nD) (t : Fin cfg0.N) (h : t.val < 3) (h1 : k0_cond1 (grid0.coords t) = 1#1)
    {κ : Kind} {sp : Space} (v : View sig κ sp S3x4096x128 .f32) (f : v.ty.Contents (Elt F)) (S : Vec F S3x4096x128 .f32)
    (hf : v.read (Elt F) f = S) (hS : Kept m c t.val S) :
    Kept m c (t.val + 1) (v.read (Elt F) (v.writes (Elt F) f [densePiece (grid0.coords t) h1 (iblk m c 1 t) (iblk m c 2 t) (iblk m c 3 t)])) := by
  intro s hs
  by_cases hst : s.val = t.val
  · obtain rfl : t = firstPt s := (Fin.ext hst).symm
    funext j
    exact View.read_writes_cons_emb v f (Rect.unit (s := S3x4096x128) (k0_off4 (grid0.coords (firstPt s))) S1x4096x128.size (k0_off4_inb (grid0.coords (firstPt s)) h1)) _ [] j
  · rw [← hS s (by omega)]
    funext j
    subst hf
    have hj : (j 0).val < 1 := (j 0).isLt
    have hoff := congrFun (load_off (firstPt s)) 0
    refine (View.read_writes_cons_unit_of_not_mem v f (k0_off4_inb (grid0.coords t) h1) _ []
      ((Rect.unit (s := S3x4096x128) (k0_off5 (grid0.coords (firstPt s))) S1x4096x128.size (k0_off5_inb (grid0.coords (firstPt s)))).idx j) (store_off t) 0 ?_)
    have hy : (((Rect.unit (s := S3x4096x128) (k0_off5 (grid0.coords (firstPt s))) S1x4096x128.size (k0_off5_inb (grid0.coords (firstPt s)))).idx j) 0).val
        = k0_off5 (grid0.coords (firstPt s)) 0 + 1 * (j 0).val := rfl
    rw [hy, hoff]
    have hs3 := s.isLt
    show s.val % 3 + 1 * (j 0).val < t.val % 3 ∨ t.val % 3 + 1 ≤ s.val % 3 + 1 * (j 0).val
    rw [Nat.mod_eq_of_lt hs3, Nat.mod_eq_of_lt h]
    omega

/-! ## The output block -/

/-- One edge type's share of a row block: the adjacency block times the dense layer, rectified and scaled. -/
def share (c : Dev nD) (t : Fin cfg0.N) : Vec F S512x128 .f32 := k0_pay2 (iblk m c 0 t) (dense m c (edgeOf t))

/-- The output block after the body at position `n`: the share at edge type 0, else the share added to what the
    point before left. -/
def acc (c : Dev nD) : (n : ℕ) → n < cfg0.N → Vec F S512x128 .f32
  | 0, h => share m c ⟨0, h⟩
  | n + 1, h =>
    if (n + 1) % 3 = 0 then share m c ⟨n + 1, h⟩
    else k0_pay3 (iblk m c 0 ⟨n + 1, h⟩) (dense m c (edgeOf ⟨n + 1, h⟩)) (acc c n (Nat.lt_of_succ_lt h))

theorem acc_init (c : Dev nD) (t : Fin cfg0.N) (h : t.val % 3 = 0) : acc m c t.val t.isLt = share m c t := by
  obtain ⟨n, hn⟩ := t
  cases n with
  | zero => rfl
  | succ n => exact if_pos h

theorem acc_step (c : Dev nD) (t : Fin cfg0.N) (h : t.val % 3 ≠ 0) :
    acc m c t.val t.isLt = k0_pay3 (iblk m c 0 t) (dense m c (edgeOf t)) (acc m c (t.val - 1) (Nat.lt_of_le_of_lt (Nat.sub_le _ _) t.isLt)) := by
  obtain ⟨n, hn⟩ := t
  cases n with
  | zero => exact absurd (Nat.zero_mod 3) h
  | succ n => exact if_neg h

/-! ## The invariant and the proof data -/

/-- The region's invariant before position `n`: the scratch at some contents that keep the dense layers computed so
    far, and the generator register at some state. -/
def Phi (c : Dev nD) (n : ℕ) : sProp 𝕄 :=
  iprop(iprop(∃ S, ⌜Kept m c n S⌝ ∗ owns (c : Thread nD τ) supM fullShare S) ∗ (∃ r, prngReg c r))

/-- The proof data of the one pipeline on core `c`: the arrays as the region finds them; after the body each
    input's buffer at its block, the output's at the accumulated block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window is live at every grid coordinate. -/
theorem out_live_all : ∀ i : grid0.Coords, cfg0.idle 4 i = false := by decide +kernel

/-- At edge types 1 and 2 the output buffer holds what the point before left: it is written back only after edge type 2. -/
theorem before4 (c : Dev nD) (t : Fin cfg0.N) (h : t.val % 3 ≠ 0) (d) :
    (dats m 0 c).before 4 t d = acc m c (t.val - 1) (Nat.lt_of_le_of_lt (Nat.sub_le _ _) t.isLt) :=
  ((dats m 0 c).before_out_kept 4 rfl t (fun h0 => h (by rw [h0])) (Bool.eq_false_iff.mpr fun hf => by
      have := (flush0_4 _).mp hf
      dsimp only at this
      omega) out_live_all (fun _ _ => rfl) d).trans (by dsimp only [dats])

end Cert.Kernel.Body

end
-- ==== Proof.GcnBitsPoint.lean ====
/-
  The body's obligation at a grid point, in each of the four ways the grid meets the body.

  At a point the body is handed the invariant, the four inputs' buffers at their blocks and the output buffer at
  what the point before left (or at anything, where the block is new). Each run hands back the scratch keeping one
  more dense layer (or as it was) and the output buffer at the accumulated block.
-/
import proofs.«142835_g51436528337343_cont_8to1c4_445_16_alg».proof.Proof.GcnBitsData
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, every window's current buffer. -/
def bodyPre (c : Dev nD) (t : Fin cfg0.N) : sProp 𝕄 :=
  iprop((dats m 0 c).Φ t.castSucc ∗ (dats m 0 c).owesAt () t.castSucc
    ∗ (∃ d, owns (c : Thread nD τ) (adjM t) fullShare ((dats m 0 c).before 0 t d))
    ∗ (∃ d, owns (c : Thread nD τ) (featM t) fullShare ((dats m 0 c).before 1 t d))
    ∗ (∃ d, owns (c : Thread nD τ) (weightM t) fullShare ((dats m 0 c).before 2 t d))
    ∗ (∃ d, owns (c : Thread nD τ) (biasM t) fullShare ((dats m 0 c).before 3 t d))
    ∗ (∃ d, owns (c : Thread nD τ) (outM t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (adjM t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (featM t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (weightM t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (biasM t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (outM t) fullShare (acc m c t.val t.isLt) := by
  unfold Dat.leavesExact; rw [out_live t, after4]

/-- The obligation at point `t` with the proof data's terms opened: the goal every case starts from. -/
theorem point_open (c : Dev nD) (t : Fin cfg0.N)
    (h : iprop(Phi m c t.val ∗ (dats m 0 c).owesAt () t.castSucc
        ∗ (∃ d : (cfg0.win 0).block.Idx → Elt F (cfg0.win 0).elt, owns (c : Thread nD τ) (adjM t) fullShare (iblk m c 0 t))
        ∗ (∃ d : (cfg0.win 1).block.Idx → Elt F (cfg0.win 1).elt, owns (c : Thread nD τ) (featM t) fullShare (iblk m c 1 t))
        ∗ (∃ d : (cfg0.win 2).block.Idx → Elt F (cfg0.win 2).elt, owns (c : Thread nD τ) (weightM t) fullShare (iblk m c 2 t))
        ∗ (∃ d : (cfg0.win 3).block.Idx → Elt F (cfg0.win 3).elt, owns (c : Thread nD τ) (biasM t) fullShare (iblk m c 3 t))
        ∗ (∃ d, owns (c : Thread nD τ) (outM t) fullShare ((dats m 0 c).before 4 t d)))
      ⊢ wp frame (wpE (defs₀ (F := F)) Variants.none c none) Set.univ (bodyAt0 t) (fun _ =>
        iprop(Phi m c (t.val + 1) ∗ (dats m 0 c).owesAt () t.castSucc
          ∗ owns (c : Thread nD τ) (adjM t) fullShare (iblk m c 0 t)
          ∗ owns (c : Thread nD τ) (featM t) fullShare (iblk m c 1 t)
          ∗ owns (c : Thread nD τ) (weightM t) fullShare (iblk m c 2 t)
          ∗ owns (c : Thread nD τ) (biasM t) fullShare (iblk m c 3 t)
          ∗ owns (c : Thread nD τ) (outM t) fullShare (acc m c t.val t.isLt)))) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl]
  rw [leaves0, leaves1, leaves2, leaves3, leaves4]
  exact h

set_option maxHeartbeats 1600000 in
theorem point_firstInit (c : Dev nD) (t : Fin cfg0.N) (hr : t.val < 3) (he : t.val % 3 = 0) :
    bodyPre m c t ⊢ wp frame (wpE (defs₀ (F := F)) Variants.none c none) Set.univ (bodyAt0 t) (fun _ => bodyPost m c t) := by
  have h1 : k0_cond1 (grid0.coords t) = 1#1 := (first_rows_iff t).mpr hr
  have h2 : k0_cond2 (grid0.coords t) = 1#1 := (init_iff t).mpr he
  have h3 : ¬ k0_cond3 (grid0.coords t) = 1#1 := fun h => (accum_iff t).mp h he
  refine point_open m c t ?_
  rw [acc_init m c t he]; unfold share
  rw [dense_at m c t hr h1]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (firstInit_triple c (grid0.coords t) _ _ _ _ _ _ _ _ _ _ _ _ (iblk m c 0 t) (iblk m c 1 t) (iblk m c 2 t) (iblk m c 3 t) S h1 h2 h3 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact kept_store m c t hr h1 supM.view ((Memref.isWhole_whole cc0_scratch0).unread S) S ((Memref.isWhole_whole cc0_scratch0).read_unread S) hS
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_firstAccum (c : Dev nD) (t : Fin cfg0.N) (hr : t.val < 3) (he : t.val % 3 ≠ 0) :
    bodyPre m c t ⊢ wp frame (wpE (defs₀ (F := F)) Variants.none c none) Set.univ (bodyAt0 t) (fun _ => bodyPost m c t) := by
  have h1 : k0_cond1 (grid0.coords t) = 1#1 := (first_rows_iff t).mpr hr
  have h2 : ¬ k0_cond2 (grid0.coords t) = 1#1 := fun h => he ((init_iff t).mp h)
  have h3 : k0_cond3 (grid0.coords t) = 1#1 := (accum_iff t).mpr he
  refine point_open m c t ?_
  simp only [before4 m c t he]
  rw [acc_step m c t he]
  rw [dense_at m c t hr h1]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (firstAccum_triple c (grid0.coords t) _ _ _ _ _ _ _ _ _ _ _ _ (iblk m c 0 t) (iblk m c 1 t) (iblk m c 2 t) (iblk m c 3 t) S h1 h2 h3 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact kept_store m c t hr h1 supM.view ((Memref.isWhole_whole cc0_scratch0).unread S) S ((Memref.isWhole_whole cc0_scratch0).read_unread S) hS
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_laterInit (c : Dev nD) (t : Fin cfg0.N) (hr : ¬ t.val < 3) (he : t.val % 3 = 0) :
    bodyPre m c t ⊢ wp frame (wpE (defs₀ (F := F)) Variants.none c none) Set.univ (bodyAt0 t) (fun _ => bodyPost m c t) := by
  have h1 : ¬ k0_cond1 (grid0.coords t) = 1#1 := fun h => hr ((first_rows_iff t).mp h)
  have h2 : k0_cond2 (grid0.coords t) = 1#1 := (init_iff t).mpr he
  have h3 : ¬ k0_cond3 (grid0.coords t) = 1#1 := fun h => (accum_iff t).mp h he
  refine point_open m c t ?_
  rw [acc_init m c t he]; unfold share
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (laterInit_triple c (grid0.coords t) _ _ _ _ _ _ _ _ _ _ _ _ (iblk m c 0 t) (iblk m c 1 t) (iblk m c 2 t) (iblk m c 3 t) S h1 h2 h3 (dense m c (edgeOf t)) (supSlab_of_kept m c t t.val (by have := Nat.mod_lt t.val (by omega : 0 < 3); omega) S hS) _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact fun s hs => hS s (by have := s.isLt; omega)
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_laterAccum (c : Dev nD) (t : Fin cfg0.N) (hr : ¬ t.val < 3) (he : t.val % 3 ≠ 0) :
    bodyPre m c t ⊢ wp frame (wpE (defs₀ (F := F)) Variants.none c none) Set.univ (bodyAt0 t) (fun _ => bodyPost m c t) := by
  have h1 : ¬ k0_cond1 (grid0.coords t) = 1#1 := fun h => hr ((first_rows_iff t).mp h)
  have h2 : ¬ k0_cond2 (grid0.coords t) = 1#1 := fun h => he ((init_iff t).mp h)
  have h3 : k0_cond3 (grid0.coords t) = 1#1 := (accum_iff t).mpr he
  refine point_open m c t ?_
  simp only [before4 m c t he]
  rw [acc_step m c t he]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (laterAccum_triple c (grid0.coords t) _ _ _ _ _ _ _ _ _ _ _ _ (iblk m c 0 t) (iblk m c 1 t) (iblk m c 2 t) (iblk m c 3 t) S h1 h2 h3 (dense m c (edgeOf t)) (supSlab_of_kept m c t t.val (by have := Nat.mod_lt t.val (by omega : 0 < 3); omega) S hS) _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact fun s hs => hS s (by have := s.isLt; omega)
      iexact HS
    iexact Hg
  isplitl [Ho]; · iexact Ho
  isplitl [H0]; · iexact H0
  isplitl [H1]; · iexact H1
  isplitl [H2]; · iexact H2
  isplitl [H3]; · iexact H3
  iexact H4

end Cert.Kernel.Body

end
-- ==== Proof.GcnBitsRun.lean ====
/-
  The frame of the program: it runs to the end, faults nowhere, and leaves its argument arrays unchanged.

  The body's obligation holds at every grid point (one of four runs, chosen by the point's position), the launch's
  invariant is the proof data's before the first point (no dense layer kept yet) and is given back after the last
  (what the scratch keeps is forgotten); the frame run of the pipeline library then concludes.
-/
import proofs.«142835_g51436528337343_cont_8to1c4_445_16_alg».proof.Proof.GcnBitsPoint
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the first three points store a dense layer, the points of edge type 0 initialise the
    output block. -/
theorem sound_body (c : Dev nD) (t : Fin cfg0.N) :
    bodyPre m c t ⊢ wp frame (wpE (defs₀ (F := F)) Variants.none c none) Set.univ (bodyAt0 t) (fun _ => bodyPost m c t) := by
  by_cases hr : t.val < 3
  · by_cases he : t.val % 3 = 0
    · exact point_firstInit m c t hr he
    · exact point_firstAccum m c t hr he
  · by_cases he : t.val % 3 = 0
    · exact point_laterInit m c t hr he
    · exact point_laterAccum m c t hr he

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no dense layer is kept yet. -/
theorem hin (c : Dev nD) : Pipeline.ΦA spec0 c ⊢ (dats m 0 c).Φ 0 := by
  rw [show (dats m 0 c).Φ 0 = Phi m c 0 from rfl, scratch_any]
  unfold Phi
  iintro ⟨⟨%d, HS⟩, Hg⟩
  isplitl [HS]
  · iexists d; isplitr
    · ipureintro; exact fun s hs => absurd hs (Nat.not_lt_zero _)
    iexact HS
  iexact Hg

/-- After the last point the invariant gives the launch's back: what the scratch keeps is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, scratch_any]
  unfold Phi
  iintro ⟨⟨%S, %hS, HS⟩, Hg⟩
  isplitl [HS]
  · iexists S; iexact HS
  iexact Hg

set_option backward.isDefEq.respectTransparency.types false in
/-- Every weakly fair execution of @main terminates, every array of the pipeline ending at what the library
    computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.GcnIdealGrid.lean ====
/-
  The grid of the graph-convolution kernel, point by point.

  The 24 points are (row block r, edge type t) with t innermost: point n is r = n / 3, t = n % 3.
  The body branches three times: the dense layer of type t is computed only in the first row block
  (r = 0, the points n < 3); the output block is initialised at t = 0 and added to at t = 1, 2. Here each
  branch condition and each offset the body computes is decided over the 24 points, once.
-/
import proofs.«142835_g51436528337343_cont_8to1c4_445_16_alg».proof.Proof.Gen.KernelIdeal.Frame
import proofs.«142835_g51436528337343_cont_8to1c4_445_16_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch conditions -/

/-- The dense layer is computed exactly at the first three points (row block 0). -/
theorem first_rows_iff : ∀ t : Fin cfg0.N, k0_cond1 (grid0.coords t) = 1#1 ↔ t.val < 3 :=
  (by decide +kernel : ∀ t : Fin grid0.N, k0_cond1 (grid0.coords t) = 1#1 ↔ t.val < 3)

/-- The output block is initialised exactly at edge type 0. -/
theorem init_iff : ∀ t : Fin cfg0.N, k0_cond2 (grid0.coords t) = 1#1 ↔ t.val % 3 = 0 :=
  (by decide +kernel : ∀ t : Fin grid0.N, k0_cond2 (grid0.coords t) = 1#1 ↔ t.val % 3 = 0)

/-- The output block is added to exactly at edge types 1 and 2. -/
theorem accum_iff : ∀ t : Fin cfg0.N, k0_cond3 (grid0.coords t) = 1#1 ↔ t.val % 3 ≠ 0 :=
  (by decide +kernel : ∀ t : Fin grid0.N, k0_cond3 (grid0.coords t) = 1#1 ↔ t.val % 3 ≠ 0)

/-! ## The offsets the body computes: the edge type selects the slab -/

theorem feat_off : ∀ t : Fin cfg0.N, k0_off1 (grid0.coords t) = ![0, t.val % 3, 0] :=
  (by decide +kernel : ∀ t : Fin grid0.N, k0_off1 (grid0.coords t) = ![0, t.val % 3, 0])
theorem weight_off : ∀ t : Fin cfg0.N, k0_off2 (grid0.coords t) = ![t.val % 3, 0, 0] :=
  (by decide +kernel : ∀ t : Fin grid0.N, k0_off2 (grid0.coords t) = ![t.val % 3, 0, 0])
theorem bias_off : ∀ t : Fin cfg0.N, k0_off3 (grid0.coords t) = ![t.val % 3, 0] :=
  (by decide +kernel : ∀ t : Fin grid0.N, k0_off3 (grid0.coords t) = ![t.val % 3, 0])
theorem store_off : ∀ t : Fin cfg0.N, k0_off4 (grid0.coords t) = ![t.val % 3, 0, 0] :=
  (by decide +kernel : ∀ t : Fin grid0.N, k0_off4 (grid0.coords t) = ![t.val % 3, 0, 0])
theorem load_off : ∀ t : Fin cfg0.N, k0_off5 (grid0.coords t) = ![t.val % 3, 0, 0] :=
  (by decide +kernel : ∀ t : Fin grid0.N, k0_off5 (grid0.coords t) = ![t.val % 3, 0, 0])

/-! ## Where the windows are live, and when the output block is written back -/

/-- The output window is stored into at every point: initialised or added to. -/
theorem out_live : ∀ t : Fin cfg0.N, cfg0.idle 4 (grid0.coords t) = false := by decide +kernel

/-- The adjacency window's block index: (edge type, row block, 0). -/
theorem adj_index : ∀ t : Fin cfg0.N, cc0_transform_0 (grid0.coords t) = ![t.val % 3, t.val / 3, 0] :=
  (by decide +kernel : ∀ t : Fin grid0.N, cc0_transform_0 (grid0.coords t) = ![t.val % 3, t.val / 3, 0])
/-- The output window's block index: (row block, 0). -/
theorem out_index : ∀ t : Fin cfg0.N, cc0_transform_4 (grid0.coords t) = ![t.val / 3, 0] :=
  (by decide +kernel : ∀ t : Fin grid0.N, cc0_transform_4 (grid0.coords t) = ![t.val / 3, 0])

/-! ## The memrefs the body is called with -/

abbrev adjM (t : Fin cfg0.N) : Memref sig .tc .vmem S1x512x4096 .f32 := win0_0.stage (cfg0.slots t 0)
abbrev adjW (t : Fin cfg0.N) : (adjM t).IsWhole := hstage0_0 ((cfg0.slots t 0).cast nbuf0_0)
abbrev featM (t : Fin cfg0.N) : Memref sig .tc .vmem S4096x3x128 .f32 := win0_1.stage (cfg0.slots t 1)
abbrev featW (t : Fin cfg0.N) : (featM t).IsWhole := hstage0_1 ((cfg0.slots t 1).cast nbuf0_1)
abbrev weightM (t : Fin cfg0.N) : Memref sig .tc .vmem S3x128x128 .f32 := win0_2.stage (cfg0.slots t 2)
abbrev weightW (t : Fin cfg0.N) : (weightM t).IsWhole := hstage0_2 ((cfg0.slots t 2).cast nbuf0_2)
abbrev biasM (t : Fin cfg0.N) : Memref sig .tc .vmem S3x128 .f32 := win0_3.stage (cfg0.slots t 3)
abbrev biasW (t : Fin cfg0.N) : (biasM t).IsWhole := hstage0_3 ((cfg0.slots t 3).cast nbuf0_3)
abbrev outM (t : Fin cfg0.N) : Memref sig .tc .vmem S512x128 .f32 := win0_4.stage (cfg0.slots t 4)
abbrev outW (t : Fin cfg0.N) : (outM t).IsWhole := hstage0_4 ((cfg0.slots t 4).cast nbuf0_4)
/-- The scratch holding the three dense layers, kept from the first row block to the last. -/
abbrev supM : Memref sig .tc .vmem S3x4096x128 .f32 := Memref.whole cc0_scratch0

/-- The launch's invariant with the scratch as a memref owned at some contents. -/
theorem scratch_any (c : Dev nD) :
    (Pipeline.ΦA spec0 c : sProp 𝕄)
      = iprop(iprop((∃ d, owns (c : Thread nD τ) supM fullShare d)) ∗ (∃ r, prngReg c r)) := by
  unfold Pipeline.ΦA; rw [scopedRest0_eq]; simp only [supM, owns_whole]; try rfl

end Cert.KernelIdeal.Body

end
-- ==== Proof.GcnIdealStep.lean ====
/-
  The kernel body run once, in each of the four ways the grid meets it.

  The body is called with the adjacency block, the whole feature, weight and bias arrays, the output block's
  buffer and the scratch that keeps the three dense layers. In the first row block it first computes the dense
  layer of its edge type and stores it as one slab of the scratch; at every point it then loads that slab back,
  multiplies the adjacency block into it, rectifies and scales, and either initialises the output block (edge
  type 0) or adds to it (edge types 1, 2). Each run ends with the inputs untouched, the output buffer rewritten
  by the pieces the run found, and the scratch at its former contents rewritten by the pieces stored into it.
-/
import proofs.«142835_g51436528337343_cont_8to1c4_445_16_alg».proof.Proof.GcnIdealGrid
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- First row block, edge type 0: the dense layer is stored, the output block initialised. -/
noncomputable def stepFirstInit (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : k0_cond1 i = 1#1) (h2 : k0_cond2 i = 1#1) (h3 : ¬ k0_cond3 i = 1#1) (x0 : Vec F S1x512x4096 .f32) (x1 : Vec F S4096x3x128 .f32) (x2 : Vec F S3x128x128 .f32) (x3 : Vec F S3x128 .f32) (xs : Vec F S3x4096x128 .f32) :
    Σ' (LO : List (View.Piece (Elt F) S512x128 .f32)), { LS : List (View.Piece (Elt F) S3x4096x128 .f32) //
      ∀ (xo : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexact HS

set_option maxHeartbeats 1000000 in
/-- First row block, edge type 1 or 2: the dense layer is stored, the output block (found at `xo`) added to. -/
noncomputable def stepFirstAccum (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : k0_cond1 i = 1#1) (h2 : ¬ k0_cond2 i = 1#1) (h3 : k0_cond3 i = 1#1) (x0 : Vec F S1x512x4096 .f32) (x1 : Vec F S4096x3x128 .f32) (x2 : Vec F S3x128x128 .f32) (x3 : Vec F S3x128 .f32) (xs : Vec F S3x4096x128 .f32) (xo : Vec F S512x128 .f32) :
    Σ' (LO : List (View.Piece (Elt F) S512x128 .f32)), { LS : List (View.Piece (Elt F) S3x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexact HS

set_option maxHeartbeats 1000000 in
/-- A later row block, edge type 0: the scratch is only read, the output block initialised. -/
noncomputable def stepLaterInit (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : ¬ k0_cond1 i = 1#1) (h2 : k0_cond2 i = 1#1) (h3 : ¬ k0_cond3 i = 1#1) (x0 : Vec F S1x512x4096 .f32) (x1 : Vec F S4096x3x128 .f32) (x2 : Vec F S3x128x128 .f32) (x3 : Vec F S3x128 .f32) (xs : Vec F S3x4096x128 .f32) :
    { LO : List (View.Piece (Elt F) S512x128 .f32) //
      ∀ (xo : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexists _; isplitr; · ipureintro; exact harg7.read_unread _
    iexact HS

set_option maxHeartbeats 1000000 in
/-- A later row block, edge type 1 or 2: the scratch is only read, the output block (found at `xo`) added to. -/
noncomputable def stepLaterAccum (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole)
    (h1 : ¬ k0_cond1 i = 1#1) (h2 : ¬ k0_cond2 i = 1#1) (h3 : k0_cond3 i = 1#1) (x0 : Vec F S1x512x4096 .f32) (x1 : Vec F S4096x3x128 .f32) (x2 : Vec F S3x128x128 .f32) (x3 : Vec F S3x128 .f32) (xs : Vec F S3x4096x128 .f32) (xo : Vec F S512x128 .f32) :
    { LO : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfo; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; iexact HO
    iexists _; isplitr; · ipureintro; exact harg7.read_unread _
    iexact HS

end Cert.KernelIdeal.Body

end
-- ==== Proof.GcnIdealPieces.lean ====
/-
  What the four runs of the body store, in closed form.

  A run in the first row block loads, from the whole feature, weight and bias arrays, the parts of its edge type
  and stores the dense layer computed from them as that edge type's slab of the scratch; every run loads the slab
  of its edge type back (in the first row block: the slab just stored) and stores into the output block either the
  rectified, scaled product with the adjacency block or that plus what the block held.
-/
import proofs.«142835_g51436528337343_cont_8to1c4_445_16_alg».proof.Proof.GcnIdealStep
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The features of the point's edge type: one column of the [4096, 3, 128] array. -/
def featSlab (i : grid0.Coords) (h1 : k0_cond1 i = 1#1) (x1 : Vec F S4096x3x128 .f32) : Vec F S4096x1x128 .f32 :=
  View.ld x1 (Rect.unit (k0_off1 i) S4096x1x128.size (k0_off1_inb i h1))
/-- The weights of the point's edge type. -/
def weightSlab (i : grid0.Coords) (h1 : k0_cond1 i = 1#1) (x2 : Vec F S3x128x128 .f32) : Vec F S1x128x128 .f32 :=
  View.ld x2 (Rect.unit (k0_off2 i) S1x128x128.size (k0_off2_inb i h1))
/-- The bias row of the point's edge type. -/
def biasRow (i : grid0.Coords) (h1 : k0_cond1 i = 1#1) (x3 : Vec F S3x128 .f32) : Vec F S1x128 .f32 :=
  View.ld x3 (Rect.unit (k0_off3 i) S1x128.size (k0_off3_inb i h1))
/-- The dense layer of the point's edge type, from the whole arrays. -/
def denseOf (i : grid0.Coords) (h1 : k0_cond1 i = 1#1) (x1 : Vec F S4096x3x128 .f32) (x2 : Vec F S3x128x128 .f32) (x3 : Vec F S3x128 .f32) :
    Vec F S1x4096x128 .f32 :=
  k0_pay1 (featSlab i h1 x1) (weightSlab i h1 x2) (biasRow i h1 x3)
/-- The slab of the point's edge type, read off the scratch's contents. -/
def supSlab (i : grid0.Coords) (xs : Vec F S3x4096x128 .f32) : Vec F S1x4096x128 .f32 :=
  View.ld xs (Rect.unit (k0_off5 i) S1x4096x128.size (k0_off5_inb i))

/-- The one piece a run in the first row block stores into the scratch: the dense layer, at its edge type's slab. -/
def densePiece (i : grid0.Coords) (h1 : k0_cond1 i = 1#1) (x1 : Vec F S4096x3x128 .f32) (x2 : Vec F S3x128x128 .f32) (x3 : Vec F S3x128 .f32) :
    View.Piece (Elt F) S3x4096x128 .f32 :=
  ⟨Rect.unit (k0_off4 i) S1x4096x128.size (k0_off4_inb i h1), denseOf i h1 x1 x2 x3⟩
/-- A piece that rewrites the whole output block. -/
def outPiece (w : Vec F S512x128 .f32) : View.Piece (Elt F) S512x128 .f32 :=
  ⟨Rect.unit ![0, 0] S512x128.size inb_S512x128_S512x128_0_0, w⟩

/-- Such a piece covers the block, -/
theorem outPiece_cover (w : Vec F S512x128 .f32) (y : S512x128.Idx) : ∃ p ∈ [outPiece w], y ∈ p.1.set :=
  ⟨_, List.mem_singleton_self _, View.mem_set_unit_zero zeros2 inb_S512x128_S512x128_0_0 y⟩
/-- so after it the buffer reads its payload, whatever it held. -/
theorem read_outPiece {κ : Kind} {sp : Space} (v : View sig κ sp S512x128 .f32) (f : v.ty.Contents (Elt F)) (w : Vec F S512x128 .f32) :
    v.read (Elt F) (v.writes (Elt F) f [outPiece w]) = w :=
  (View.read_writes_eq_canon v f _ (outPiece_cover w)).trans (View.canon_unit_zero zeros2 _ w)

variable (c : Dev nD) (i : grid0.Coords) (arg2 : Memref sig .tc .vmem S1x512x4096 .f32) (harg2 : arg2.IsWhole) (arg3 : Memref sig .tc .vmem S4096x3x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S512x128 .f32) (harg6 : arg6.IsWhole) (arg7 : Memref sig .tc .vmem S3x4096x128 .f32) (harg7 : arg7.IsWhole) (x0 : Vec F S1x512x4096 .f32) (x1 : Vec F S4096x3x128 .f32) (x2 : Vec F S3x128x128 .f32) (x3 : Vec F S3x128 .f32) (xs : Vec F S3x4096x128 .f32)

theorem firstInit_out (h1 : k0_cond1 i = 1#1) (h2 : k0_cond2 i = 1#1) (h3 : ¬ k0_cond3 i = 1#1) :
    (stepFirstInit c i arg2 harg2 arg3 harg3 arg4 harg4 arg5 harg5 arg6 harg6 arg7 harg7 h1 h2 h3 x0 x1 x2 x3 xs).1 = [outPiece (k0_pay2 x0 (denseOf i h1 x1 x2 x3))] := by
  unfold stepFirstInit; dsimp only; sl_unfold_words
  simp only [View.readAt_eq_ld, Memref.IsWhole.read_unread, View.ld_unit_zero (S := S1x512x4096) zeros3]
  exact congrArg (fun z => [outPiece (k0_pay2 x0 z)]) (View.readCov_cons_toLoadRect _ _ _ _)

theorem firstInit_sup (h1 : k0_cond1 i = 1#1) (h2 : k0_cond2 i = 1#1) (h3 : ¬ k0_cond3 i = 1#1) :
    (stepFirstInit c i arg2 harg2 arg3 harg3 arg4 harg4 arg5 harg5 arg6 harg6 arg7 harg7 h1 h2 h3 x0 x1 x2 x3 xs).2.1 = [densePiece i h1 x1 x2 x3] := by
  unfold stepFirstInit; dsimp only; sl_unfold_words
  simp only [View.readAt_eq_ld, Memref.IsWhole.read_unread]
  rfl

theorem firstAccum_out (h1 : k0_cond1 i = 1#1) (h2 : ¬ k0_cond2 i = 1#1) (h3 : k0_cond3 i = 1#1) (xo : Vec F S512x128 .f32) :
    (stepFirstAccum c i arg2 harg2 arg3 harg3 arg4 harg4 arg5 harg5 arg6 harg6 arg7 harg7 h1 h2 h3 x0 x1 x2 x3 xs xo).1 = [outPiece (k0_pay3 x0 (denseOf i h1 x1 x2 x3) xo)] := by
  unfold stepFirstAccum; dsimp only; sl_unfold_words
  simp only [View.readAt_eq_ld, Memref.IsWhole.read_unread, View.ld_unit_zero (S := S1x512x4096) zeros3, View.ld_unit_zero (S := S512x128) zeros2]
  exact congrArg (fun z => [outPiece (k0_pay3 x0 z xo)]) (View.readCov_cons_toLoadRect _ _ _ _)

theorem firstAccum_sup (h1 : k0_cond1 i = 1#1) (h2 : ¬ k0_cond2 i = 1#1) (h3 : k0_cond3 i = 1#1) (xo : Vec F S512x128 .f32) :
    (stepFirstAccum c i arg2 harg2 arg3 harg3 arg4 harg4 arg5 harg5 arg6 harg6 arg7 harg7 h1 h2 h3 x0 x1 x2 x3 xs xo).2.1 = [densePiece i h1 x1 x2 x3] := by
  unfold stepFirstAccum; dsimp only; sl_unfold_words
  simp only [View.readAt_eq_ld, Memref.IsWhole.read_unread]
  rfl

theorem laterInit_out (h1 : ¬ k0_cond1 i = 1#1) (h2 : k0_cond2 i = 1#1) (h3 : ¬ k0_cond3 i = 1#1) :
    (stepLaterInit c i arg2 harg2 arg3 harg3 arg4 harg4 arg5 harg5 arg6 harg6 arg7 harg7 h1 h2 h3 x0 x1 x2 x3 xs).1 = [outPiece (k0_pay2 x0 (supSlab i xs))] := by
  unfold stepLaterInit; dsimp only; sl_unfold_words
  simp only [View.readAt_eq_ld, Memref.IsWhole.read_unread, View.ld_unit_zero (S := S1x512x4096) zeros3]
  rfl

theorem laterAccum_out (h1 : ¬ k0_cond1 i = 1#1) (h2 : ¬ k0_cond2 i = 1#1) (h3 : k0_cond3 i = 1#1) (xo : Vec F S512x128 .f32) :
    (stepLaterAccum c i arg2 harg2 arg3 harg3 arg4 harg4 arg5 harg5 arg6 harg6 arg7 harg7 h1 h2 h3 x0 x1 x2 x3 xs xo).1 = [outPiece (k0_pay3 x0 (supSlab i xs) xo)] := by
  unfold stepLaterAccum; dsimp only; sl_unfold_words
  simp only [View.readAt_eq_ld, Memref.IsWhole.read_unread, View.ld_unit_zero (S := S1x512x4096) zeros3, View.ld_unit_zero (S := S512x128) zeros2]
  rfl

/-! ## The four runs with their pieces read back -/

theorem firstInit_triple (h1 : k0_cond1 i = 1#1) (h2 : k0_cond2 i = 1#1) (h3 : ¬ k0_cond3 i = 1#1) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 (denseOf i h1 x1 x2 x3))
            ∗ owns (c : Thread nD τ) arg7 fullShare (arg7.view.read (Elt F) (arg7.view.writes (Elt F) (harg7.unread xs) [densePiece i h1 x1 x2 x3]))) -∗ K ⟨⟩))
      ⊢ wp frame (wpE (defs₀ (F := F)) Variants.none c none) E (cc0__gcn_kernel i arg2 harg2 arg3 harg3 arg4 harg4 arg5 harg5 arg6 harg6 arg7 harg7) K := by
  have h := (stepFirstInit c i arg2 harg2 arg3 harg3 arg4 harg4 arg5 harg5 arg6 harg6 arg7 harg7 h1 h2 h3 x0 x1 x2 x3 xs).2.2 xo E K
  rw [firstInit_sup, firstInit_out] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  unfold owns; iexists _; isplitr
  swap; · iexact HS
  ipureintro; rfl

theorem firstAccum_triple (h1 : k0_cond1 i = 1#1) (h2 : ¬ k0_cond2 i = 1#1) (h3 : k0_cond3 i = 1#1) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x0 (denseOf i h1 x1 x2 x3) xo)
            ∗ owns (c : Thread nD τ) arg7 fullShare (arg7.view.read (Elt F) (arg7.view.writes (Elt F) (harg7.unread xs) [densePiece i h1 x1 x2 x3]))) -∗ K ⟨⟩))
      ⊢ wp frame (wpE (defs₀ (F := F)) Variants.none c none) E (cc0__gcn_kernel i arg2 harg2 arg3 harg3 arg4 harg4 arg5 harg5 arg6 harg6 arg7 harg7) K := by
  have h := (stepFirstAccum c i arg2 harg2 arg3 harg3 arg4 harg4 arg5 harg5 arg6 harg6 arg7 harg7 h1 h2 h3 x0 x1 x2 x3 xs xo).2.2 E K
  rw [firstAccum_sup, firstAccum_out] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  unfold owns; iexists _; isplitr
  swap; · iexact HS
  ipureintro; rfl

theorem laterInit_triple (h1 : ¬ k0_cond1 i = 1#1) (h2 : k0_cond2 i = 1#1) (h3 : ¬ k0_cond3 i = 1#1) (D : Vec F S1x4096x128 .f32) (hD : supSlab i xs = D) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 D)
            ∗ owns (c : Thread nD τ) arg7 fullShare xs) -∗ K ⟨⟩))
      ⊢ wp frame (wpE (defs₀ (F := F)) Variants.none c none) E (cc0__gcn_kernel i arg2 harg2 arg3 harg3 arg4 harg4 arg5 harg5 arg6 harg6 arg7 harg7) K := by
  have h := (stepLaterInit c i arg2 harg2 arg3 harg3 arg4 harg4 arg5 harg5 arg6 harg6 arg7 harg7 h1 h2 h3 x0 x1 x2 x3 xs).2 xo E K
  rw [laterInit_out, hD] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  iexact HS

theorem laterAccum_triple (h1 : ¬ k0_cond1 i = 1#1) (h2 : ¬ k0_cond2 i = 1#1) (h3 : k0_cond3 i = 1#1) (D : Vec F S1x4096x128 .f32) (hD : supSlab i xs = D) (xo : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x0 D xo)
            ∗ owns (c : Thread nD τ) arg7 fullShare xs) -∗ K ⟨⟩))
      ⊢ wp frame (wpE (defs₀ (F := F)) Variants.none c none) E (cc0__gcn_kernel i arg2 harg2 arg3 harg3 arg4 harg4 arg5 harg5 arg6 harg6 arg7 harg7) K := by
  have h := (stepLaterAccum c i arg2 harg2 arg3 harg3 arg4 harg4 arg5 harg5 arg6 harg6 arg7 harg7 h1 h2 h3 x0 x1 x2 x3 xs xo).2 E K
  rw [laterAccum_out, hD] at h
  iintro ⟨H0, H1, H2, H3, HO, HS, Hk⟩
  iapply h
  isplitl [H0]; · iexact H0
  isplitl [H1]; · iexact H1
  isplitl [H2]; · iexact H2
  isplitl [H3]; · iexact H3
  isplitl [HO]; · iexact HO
  isplitl [HS]; · iexact HS
  iintro ⟨H0, H1, H2, H3, ⟨%f, HO⟩, HS⟩
  iapply Hk
  isplitl [H0]; · iexact H0
  isplitl [H1]; · iexact H1
  isplitl [H2]; · iexact H2
  isplitl [H3]; · iexact H3
  isplitl [HO]
  · unfold owns; iexists _; isplitr
    swap; · iexact HO
    ipureintro; exact read_outPiece _ _ _
  iexact HS

end Cert.KernelIdeal.Body

end
-- ==== Proof.GcnIdealData.lean ====
/-
  What the scratch and the output block hold after every point, and the proof data stated over it.

  The scratch is entered at unknown contents. The first three points (row block 0, edge types 0, 1, 2) each
  store the dense layer of their edge type into that edge type's slab, so before point n the slabs of the edge
  types below min(n, 3) hold their dense layers; from point 3 on the scratch is only read. The output block of a
  row block is initialised at edge type 0 and added to at edge types 1 and 2; it is written back after edge type 2.
-/
import proofs.«142835_g51436528337343_cont_8to1c4_445_16_alg».proof.Proof.GcnIdealPieces
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three dense layers -/

/-- Point `s` of the first row block: where edge type `s`'s dense layer is computed. -/
def firstPt (s : Fin 3) : Fin cfg0.N := ⟨s.val, by have := s.isLt; show s.val < grid0.N; rw [N_0]; omega⟩

theorem firstPt_first (s : Fin 3) : k0_cond1 (grid0.coords (firstPt s)) = 1#1 := (first_rows_iff (firstPt s)).mpr s.isLt

/-- A point's edge type. -/
def edgeOf (t : Fin cfg0.N) : Fin 3 := ⟨t.val % 3, Nat.mod_lt _ (by omega)⟩

/-- The dense layer of edge type `s`, from the argument arrays as the region finds them. -/
def dense (c : Dev nD) (s : Fin 3) : Vec F S1x4096x128 .f32 :=
  denseOf (grid0.coords (firstPt s)) (firstPt_first s) (iblk m c 1 (firstPt s)) (iblk m c 2 (firstPt s)) (iblk m c 3 (firstPt s))

/-- At a point of the first row block the dense layer the body computes is that of the point's edge type. -/
theorem dense_at (c : Dev nD) (t : Fin cfg0.N) (h : t.val < 3) (h1 : k0_cond1 (grid0.coords t) = 1#1) :
    dense m c (edgeOf t) = denseOf (grid0.coords t) h1 (iblk m c 1 t) (iblk m c 2 t) (iblk m c 3 t) := by
  have e : firstPt (edgeOf t) = t := Fin.ext (Nat.mod_eq_of_lt h)
  have key : ∀ (u : Fin cfg0.N) (hu : k0_cond1 (grid0.coords u) = 1#1), u = t →
      denseOf (grid0.coords u) hu (iblk m c 1 u) (iblk m c 2 u) (iblk m c 3 u)
        = denseOf (grid0.coords t) h1 (iblk m c 1 t) (iblk m c 2 t) (iblk m c 3 t) := by
    intro u hu e; subst e; rfl
  exact key _ _ e

/-- The slab a point reads depends on the point's edge type only. -/
theorem supSlab_congr (u u' : Fin cfg0.N) (h : u.val % 3 = u'.val % 3) (S : Vec F S3x4096x128 .f32) :
    supSlab (grid0.coords u) S = supSlab (grid0.coords u') S := by
  have key : ∀ (off off' : Fin 3 → ℕ) (_ : off = off') (inb : ∀ a, off a + S1x4096x128.size a ≤ S3x4096x128.size a)
      (inb' : ∀ a, off' a + S1x4096x128.size a ≤ S3x4096x128.size a),
      View.ld S (Rect.unit (s := S3x4096x128) off S1x4096x128.size inb) = View.ld S (Rect.unit (s := S3x4096x128) off' S1x4096x128.size inb') := by
    intro off off' e; subst e; intro _ _; rfl
  exact key _ _ (by rw [load_off, load_off, h]) _ _

/-- Before point `n` the slabs of the edge types below `n` hold their dense layers. -/
def Kept (c : Dev nD) (n : ℕ) (S : Vec F S3x4096x128 .f32) : Prop :=
  ∀ s : Fin 3, s.val < n → supSlab (grid0.coords (firstPt s)) S = dense m c s

/-- So a point whose edge type is below `n` reads that edge type's dense layer. -/
theorem supSlab_of_kept (c : Dev nD) (t : Fin cfg0.N) (n : ℕ) (hn : t.val % 3 < n) (S : Vec F S3x4096x128 .f32) (hS : Kept m c n S) :
    supSlab (grid0.coords t) S = dense m c (edgeOf t) :=
  (supSlab_congr t (firstPt (edgeOf t)) (by show t.val % 3 = t.val % 3 % 3; rw [Nat.mod_mod]) S).trans (hS (edgeOf t) hn)

theorem kept_mono (c : Dev nD) {n n' : ℕ} (h : n' ≤ n) (S : Vec F S3x4096x128 .f32) (hS : Kept m c n S) : Kept m c n' S :=
  fun s hs => hS s (lt_of_lt_of_le hs h)

/-- Storing the dense layer of point `t < 3` into its slab keeps the earlier slabs and adds this one. -/
theorem kept_store (c : Dev nD) (t : Fin cfg0.N) (h : t.val < 3) (h1 : k0_cond1 (grid0.coords t) = 1#1)
    {κ : Kind} {sp : Space} (v : View sig κ sp S3x4096x128 .f32) (f : v.ty.Contents (Elt F)) (S : Vec F S3x4096x128 .f32)
    (hf : v.read (Elt F) f = S) (hS : Kept m c t.val S) :
    Kept m c (t.val + 1) (v.read (Elt F) (v.writes (Elt F) f [densePiece (grid0.coords t) h1 (iblk m c 1 t) (iblk m c 2 t) (iblk m c 3 t)])) := by
  intro s hs
  by_cases hst : s.val = t.val
  · obtain rfl : t = firstPt s := (Fin.ext hst).symm
    funext j
    exact View.read_writes_cons_emb v f (Rect.unit (s := S3x4096x128) (k0_off4 (grid0.coords (firstPt s))) S1x4096x128.size (k0_off4_inb (grid0.coords (firstPt s)) h1)) _ [] j
  · rw [← hS s (by omega)]
    funext j
    subst hf
    have hj : (j 0).val < 1 := (j 0).isLt
    have hoff := congrFun (load_off (firstPt s)) 0
    refine (View.read_writes_cons_unit_of_not_mem v f (k0_off4_inb (grid0.coords t) h1) _ []
      ((Rect.unit (s := S3x4096x128) (k0_off5 (grid0.coords (firstPt s))) S1x4096x128.size (k0_off5_inb (grid0.coords (firstPt s)))).idx j) (store_off t) 0 ?_)
    have hy : (((Rect.unit (s := S3x4096x128) (k0_off5 (grid0.coords (firstPt s))) S1x4096x128.size (k0_off5_inb (grid0.coords (firstPt s)))).idx j) 0).val
        = k0_off5 (grid0.coords (firstPt s)) 0 + 1 * (j 0).val := rfl
    rw [hy, hoff]
    have hs3 := s.isLt
    show s.val % 3 + 1 * (j 0).val < t.val % 3 ∨ t.val % 3 + 1 ≤ s.val % 3 + 1 * (j 0).val
    rw [Nat.mod_eq_of_lt hs3, Nat.mod_eq_of_lt h]
    omega

/-! ## The output block -/

/-- One edge type's share of a row block: the adjacency block times the dense layer, rectified and scaled. -/
def share (c : Dev nD) (t : Fin cfg0.N) : Vec F S512x128 .f32 := k0_pay2 (iblk m c 0 t) (dense m c (edgeOf t))

/-- The output block after the body at position `n`: the share at edge type 0, else the share added to what the
    point before left. -/
def acc (c : Dev nD) : (n : ℕ) → n < cfg0.N → Vec F S512x128 .f32
  | 0, h => share m c ⟨0, h⟩
  | n + 1, h =>
    if (n + 1) % 3 = 0 then share m c ⟨n + 1, h⟩
    else k0_pay3 (iblk m c 0 ⟨n + 1, h⟩) (dense m c (edgeOf ⟨n + 1, h⟩)) (acc c n (Nat.lt_of_succ_lt h))

theorem acc_init (c : Dev nD) (t : Fin cfg0.N) (h : t.val % 3 = 0) : acc m c t.val t.isLt = share m c t := by
  obtain ⟨n, hn⟩ := t
  cases n with
  | zero => rfl
  | succ n => exact if_pos h

theorem acc_step (c : Dev nD) (t : Fin cfg0.N) (h : t.val % 3 ≠ 0) :
    acc m c t.val t.isLt = k0_pay3 (iblk m c 0 t) (dense m c (edgeOf t)) (acc m c (t.val - 1) (Nat.lt_of_le_of_lt (Nat.sub_le _ _) t.isLt)) := by
  obtain ⟨n, hn⟩ := t
  cases n with
  | zero => exact absurd (Nat.zero_mod 3) h
  | succ n => exact if_neg h

/-! ## The invariant and the proof data -/

/-- The region's invariant before position `n`: the scratch at some contents that keep the dense layers computed so
    far, and the generator register at some state. -/
def Phi (c : Dev nD) (n : ℕ) : sProp 𝕄 :=
  iprop(iprop(∃ S, ⌜Kept m c n S⌝ ∗ owns (c : Thread nD τ) supM fullShare S) ∗ (∃ r, prngReg c r))

/-- The proof data of the one pipeline on core `c`: the arrays as the region finds them; after the body each
    input's buffer at its block, the output's at the accumulated block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window is live at every grid coordinate. -/
theorem out_live_all : ∀ i : grid0.Coords, cfg0.idle 4 i = false := by decide +kernel

/-- At edge types 1 and 2 the output buffer holds what the point before left: it is written back only after edge type 2. -/
theorem before4 (c : Dev nD) (t : Fin cfg0.N) (h : t.val % 3 ≠ 0) (d) :
    (dats m 0 c).before 4 t d = acc m c (t.val - 1) (Nat.lt_of_le_of_lt (Nat.sub_le _ _) t.isLt) :=
  ((dats m 0 c).before_out_kept 4 rfl t (fun h0 => h (by rw [h0])) (Bool.eq_false_iff.mpr fun hf => by
      have := (flush0_4 _).mp hf
      dsimp only at this
      omega) out_live_all (fun _ _ => rfl) d).trans (by dsimp only [dats])

end Cert.KernelIdeal.Body

end
-- ==== Proof.GcnIdealPoint.lean ====
/-
  The body's obligation at a grid point, in each of the four ways the grid meets the body.

  At a point the body is handed the invariant, the four inputs' buffers at their blocks and the output buffer at
  what the point before left (or at anything, where the block is new). Each run hands back the scratch keeping one
  more dense layer (or as it was) and the output buffer at the accumulated block.
-/
import proofs.«142835_g51436528337343_cont_8to1c4_445_16_alg».proof.Proof.GcnIdealData
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, every window's current buffer. -/
def bodyPre (c : Dev nD) (t : Fin cfg0.N) : sProp 𝕄 :=
  iprop((dats m 0 c).Φ t.castSucc ∗ (dats m 0 c).owesAt () t.castSucc
    ∗ (∃ d, owns (c : Thread nD τ) (adjM t) fullShare ((dats m 0 c).before 0 t d))
    ∗ (∃ d, owns (c : Thread nD τ) (featM t) fullShare ((dats m 0 c).before 1 t d))
    ∗ (∃ d, owns (c : Thread nD τ) (weightM t) fullShare ((dats m 0 c).before 2 t d))
    ∗ (∃ d, owns (c : Thread nD τ) (biasM t) fullShare ((dats m 0 c).before 3 t d))
    ∗ (∃ d, owns (c : Thread nD τ) (outM t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (adjM t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (featM t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (weightM t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (biasM t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (outM t) fullShare (acc m c t.val t.isLt) := by
  unfold Dat.leavesExact; rw [out_live t, after4]

/-- The obligation at point `t` with the proof data's terms opened: the goal every case starts from. -/
theorem point_open (c : Dev nD) (t : Fin cfg0.N)
    (h : iprop(Phi m c t.val ∗ (dats m 0 c).owesAt () t.castSucc
        ∗ (∃ d : (cfg0.win 0).block.Idx → Elt F (cfg0.win 0).elt, owns (c : Thread nD τ) (adjM t) fullShare (iblk m c 0 t))
        ∗ (∃ d : (cfg0.win 1).block.Idx → Elt F (cfg0.win 1).elt, owns (c : Thread nD τ) (featM t) fullShare (iblk m c 1 t))
        ∗ (∃ d : (cfg0.win 2).block.Idx → Elt F (cfg0.win 2).elt, owns (c : Thread nD τ) (weightM t) fullShare (iblk m c 2 t))
        ∗ (∃ d : (cfg0.win 3).block.Idx → Elt F (cfg0.win 3).elt, owns (c : Thread nD τ) (biasM t) fullShare (iblk m c 3 t))
        ∗ (∃ d, owns (c : Thread nD τ) (outM t) fullShare ((dats m 0 c).before 4 t d)))
      ⊢ wp frame (wpE (defs₀ (F := F)) Variants.none c none) Set.univ (bodyAt0 t) (fun _ =>
        iprop(Phi m c (t.val + 1) ∗ (dats m 0 c).owesAt () t.castSucc
          ∗ owns (c : Thread nD τ) (adjM t) fullShare (iblk m c 0 t)
          ∗ owns (c : Thread nD τ) (featM t) fullShare (iblk m c 1 t)
          ∗ owns (c : Thread nD τ) (weightM t) fullShare (iblk m c 2 t)
          ∗ owns (c : Thread nD τ) (biasM t) fullShare (iblk m c 3 t)
          ∗ owns (c : Thread nD τ) (outM t) fullShare (acc m c t.val t.isLt)))) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl]
  rw [leaves0, leaves1, leaves2, leaves3, leaves4]
  exact h

set_option maxHeartbeats 1600000 in
theorem point_firstInit (c : Dev nD) (t : Fin cfg0.N) (hr : t.val < 3) (he : t.val % 3 = 0) :
    bodyPre m c t ⊢ wp frame (wpE (defs₀ (F := F)) Variants.none c none) Set.univ (bodyAt0 t) (fun _ => bodyPost m c t) := by
  have h1 : k0_cond1 (grid0.coords t) = 1#1 := (first_rows_iff t).mpr hr
  have h2 : k0_cond2 (grid0.coords t) = 1#1 := (init_iff t).mpr he
  have h3 : ¬ k0_cond3 (grid0.coords t) = 1#1 := fun h => (accum_iff t).mp h he
  refine point_open m c t ?_
  rw [acc_init m c t he]; unfold share
  rw [dense_at m c t hr h1]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (firstInit_triple c (grid0.coords t) _ _ _ _ _ _ _ _ _ _ _ _ (iblk m c 0 t) (iblk m c 1 t) (iblk m c 2 t) (iblk m c 3 t) S h1 h2 h3 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact kept_store m c t hr h1 supM.view ((Memref.isWhole_whole cc0_scratch0).unread S) S ((Memref.isWhole_whole cc0_scratch0).read_unread S) hS
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_firstAccum (c : Dev nD) (t : Fin cfg0.N) (hr : t.val < 3) (he : t.val % 3 ≠ 0) :
    bodyPre m c t ⊢ wp frame (wpE (defs₀ (F := F)) Variants.none c none) Set.univ (bodyAt0 t) (fun _ => bodyPost m c t) := by
  have h1 : k0_cond1 (grid0.coords t) = 1#1 := (first_rows_iff t).mpr hr
  have h2 : ¬ k0_cond2 (grid0.coords t) = 1#1 := fun h => he ((init_iff t).mp h)
  have h3 : k0_cond3 (grid0.coords t) = 1#1 := (accum_iff t).mpr he
  refine point_open m c t ?_
  simp only [before4 m c t he]
  rw [acc_step m c t he]
  rw [dense_at m c t hr h1]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (firstAccum_triple c (grid0.coords t) _ _ _ _ _ _ _ _ _ _ _ _ (iblk m c 0 t) (iblk m c 1 t) (iblk m c 2 t) (iblk m c 3 t) S h1 h2 h3 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact kept_store m c t hr h1 supM.view ((Memref.isWhole_whole cc0_scratch0).unread S) S ((Memref.isWhole_whole cc0_scratch0).read_unread S) hS
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_laterInit (c : Dev nD) (t : Fin cfg0.N) (hr : ¬ t.val < 3) (he : t.val % 3 = 0) :
    bodyPre m c t ⊢ wp frame (wpE (defs₀ (F := F)) Variants.none c none) Set.univ (bodyAt0 t) (fun _ => bodyPost m c t) := by
  have h1 : ¬ k0_cond1 (grid0.coords t) = 1#1 := fun h => hr ((first_rows_iff t).mp h)
  have h2 : k0_cond2 (grid0.coords t) = 1#1 := (init_iff t).mpr he
  have h3 : ¬ k0_cond3 (grid0.coords t) = 1#1 := fun h => (accum_iff t).mp h he
  refine point_open m c t ?_
  rw [acc_init m c t he]; unfold share
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (laterInit_triple c (grid0.coords t) _ _ _ _ _ _ _ _ _ _ _ _ (iblk m c 0 t) (iblk m c 1 t) (iblk m c 2 t) (iblk m c 3 t) S h1 h2 h3 (dense m c (edgeOf t)) (supSlab_of_kept m c t t.val (by have := Nat.mod_lt t.val (by omega : 0 < 3); omega) S hS) _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact fun s hs => hS s (by have := s.isLt; omega)
      iexact HS
    iexact Hg
  isplitl [Ho]; · iexact Ho
  isplitl [H0]; · iexact H0
  isplitl [H1]; · iexact H1
  isplitl [H2]; · iexact H2
  isplitl [H3]; · iexact H3
  iexact H4

set_option maxHeartbeats 1600000 in
theorem point_laterAccum (c : Dev nD) (t : Fin cfg0.N) (hr : ¬ t.val < 3) (he : t.val % 3 ≠ 0) :
    bodyPre m c t ⊢ wp frame (wpE (defs₀ (F := F)) Variants.none c none) Set.univ (bodyAt0 t) (fun _ => bodyPost m c t) := by
  have h1 : ¬ k0_cond1 (grid0.coords t) = 1#1 := fun h => hr ((first_rows_iff t).mp h)
  have h2 : ¬ k0_cond2 (grid0.coords t) = 1#1 := fun h => he ((init_iff t).mp h)
  have h3 : k0_cond3 (grid0.coords t) = 1#1 := (accum_iff t).mpr he
  refine point_open m c t ?_
  simp only [before4 m c t he]
  rw [acc_step m c t he]
  unfold Phi bodyAt0
  iintro ⟨⟨⟨%S, %hS, HS⟩, Hg⟩, Ho, ⟨%d0, H0⟩, ⟨%d1, H1⟩, ⟨%d2, H2⟩, ⟨%d3, H3⟩, ⟨%d4, H4⟩⟩
  iapply (laterAccum_triple c (grid0.coords t) _ _ _ _ _ _ _ _ _ _ _ _ (iblk m c 0 t) (iblk m c 1 t) (iblk m c 2 t) (iblk m c 3 t) S h1 h2 h3 (dense m c (edgeOf t)) (supSlab_of_kept m c t t.val (by have := Nat.mod_lt t.val (by omega : 0 < 3); omega) S hS) _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      · ipureintro; exact fun s hs => hS s (by have := s.isLt; omega)
      iexact HS
    iexact Hg
  isplitl [Ho]; · iexact Ho
  isplitl [H0]; · iexact H0
  isplitl [H1]; · iexact H1
  isplitl [H2]; · iexact H2
  isplitl [H3]; · iexact H3
  iexact H4

end Cert.KernelIdeal.Body

end
-- ==== Proof.GcnIdealRun.lean ====
/-
  The frame of the program: it runs to the end, faults nowhere, and leaves its argument arrays unchanged.

  The body's obligation holds at every grid point (one of four runs, chosen by the point's position), the launch's
  invariant is the proof data's before the first point (no dense layer kept yet) and is given back after the last
  (what the scratch keeps is forgotten); the frame run of the pipeline library then concludes.
-/
import proofs.«142835_g51436528337343_cont_8to1c4_445_16_alg».proof.Proof.GcnIdealPoint
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point: the first three points store a dense layer, the points of edge type 0 initialise the
    output block. -/
theorem sound_body (c : Dev nD) (t : Fin cfg0.N) :
    bodyPre m c t ⊢ wp frame (wpE (defs₀ (F := F)) Variants.none c none) Set.univ (bodyAt0 t) (fun _ => bodyPost m c t) := by
  by_cases hr : t.val < 3
  · by_cases he : t.val % 3 = 0
    · exact point_firstInit m c t hr he
    · exact point_firstAccum m c t hr he
  · by_cases he : t.val % 3 = 0
    · exact point_laterInit m c t hr he
    · exact point_laterAccum m c t hr he

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no dense layer is kept yet. -/
theorem hin (c : Dev nD) : Pipeline.ΦA spec0 c ⊢ (dats m 0 c).Φ 0 := by
  rw [show (dats m 0 c).Φ 0 = Phi m c 0 from rfl, scratch_any]
  unfold Phi
  iintro ⟨⟨%d, HS⟩, Hg⟩
  isplitl [HS]
  · iexists d; isplitr
    · ipureintro; exact fun s hs => absurd hs (Nat.not_lt_zero _)
    iexact HS
  iexact Hg

/-- After the last point the invariant gives the launch's back: what the scratch keeps is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, scratch_any]
  unfold Phi
  iintro ⟨⟨%S, %hS, HS⟩, Hg⟩
  isplitl [HS]
  · iexists S; iexact HS
  iexact Hg

set_option backward.isDefEq.respectTransparency.types false in
/-- Every weakly fair execution of @main terminates, every array of the pipeline ending at what the library
    computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.GcnIdealPayload.lean ====
/-
  The kernel body's arithmetic on the extended reals, read at an index.

  The body computes three values.  The dense layer of one edge type: the [4096, 1, 128] feature block and the
  [1, 128, 128] weight block lose their unit axes, are multiplied into a zero accumulator, and the [1, 128] bias row
  is added to every node's row; the result is stored with a leading unit axis.  One edge type's share of the mean for a
  block of 512 nodes: the [1, 512, 4096] adjacency block times the [1, 4096, 128] supports, rectified against zero and
  multiplied by the constant named one third.  And the running total: the share added to what is already there.

  A shape cast moves an entry to the index with the same row-major position, so dropping or adding a unit axis keeps
  the other coordinates; casting a row to a vector and back changes nothing; a row broadcast over many rows reads the
  row.  A product into a zero accumulator is, at row r and column q, the sum over the contracted coordinate k of
  left (r, k) times right (k, q).
-/
import proofs.«142835_g51436528337343_cont_8to1c4_445_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.Gcn.Payload

open Idealize.ShloMosaic Idealize.ShloMosaic.ValueIdx Cert.KernelIdeal Cert.KernelIdeal.Gen

/-! ## The layout operations at an index -/

/-- A [4096, 1, 128] array viewed as [4096, 128]: entry (p, k) is entry (p, 0, k), both at row-major position 128 p + k. -/
theorem drop_middle_apply (v : Vec Ideal S4096x1x128 .f32) (h : S4096x1x128.ShapeCasts S4096x128) (p : Fin 4096) (k : Fin 128) :
    shapeCast S4096x128 v h (ix2 p k) = v (ix3 p (0 : Fin 1) k) :=
  shapeCast_apply v h _ _ (by
    rw [Shape.rowMajor_val_three, Shape.rowMajor_val_two]
    show (p.val * 1 + 0) * 128 + k.val = p.val * 128 + k.val
    omega)

/-! ## The two products -/

theorem dense_lhs0 (i : S4096x128.Idx) (c : dot_S4096x128_S128x128_S4096x128_1_0_0_1_n_n.contr.Idx) :
    (dot_S4096x128_S128x128_S4096x128_1_0_0_1_n_n.lhsIdx i c 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem dense_rhs1 (i : S4096x128.Idx) (c : dot_S4096x128_S128x128_S4096x128_1_0_0_1_n_n.contr.Idx) :
    (dot_S4096x128_S128x128_S4096x128_1_0_0_1_n_n.rhsIdx i c 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The [4096, 128] by [128, 128] product into a zero accumulator, at row `p` and column `q`: the sum over the
    contracted coordinate of the operands' products. -/
theorem dense_matmul_apply (lhs : FVec Ideal S4096x128 .f32) (rhs : FVec Ideal S128x128 .f32) (p : Fin 4096) (q : Fin 128) :
    matmul dot_S4096x128_S128x128_S4096x128_1_0_0_1_n_n none lhs rhs (constant (F := Ideal) S4096x128 .f32 0x00000000#32) (ix2 p q)
      = ∑ k : Fin 128, lhs (ix2 p k) * rhs (ix2 k q) := by
  simp only [matmul]
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q)
      ((contrEquiv1 dot_S4096x128_S128x128_S4096x128_1_0_0_1_n_n 128 rfl rfl).symm k) = ix2 p k :=
    funext fun a => Fin.ext (by
      match a with
      | ⟨0, _⟩ => exact dense_lhs0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 p q)
      ((contrEquiv1 dot_S4096x128_S128x128_S4096x128_1_0_0_1_n_n 128 rfl rfl).symm k) = ix2 k q :=
    funext fun a => Fin.ext (by
      match a with
      | ⟨0, _⟩ => exact (dot_S4096x128_S128x128_S4096x128_1_0_0_1_n_n.rhsIdx_val_of_single rfl _ _).trans hk
      | ⟨1, _⟩ => exact dense_rhs1 _ _)
  rw [el, er]

theorem gather_lhs0 (i : S512x128.Idx) (c : dot_S512x4096_S4096x128_S512x128_1_0_0_1_n_n.contr.Idx) :
    (dot_S512x4096_S4096x128_S512x128_1_0_0_1_n_n.lhsIdx i c 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem gather_rhs1 (i : S512x128.Idx) (c : dot_S512x4096_S4096x128_S512x128_1_0_0_1_n_n.contr.Idx) :
    (dot_S512x4096_S4096x128_S512x128_1_0_0_1_n_n.rhsIdx i c 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The [512, 4096] by [4096, 128] product into a zero accumulator, at row `r` and column `q`: the sum over the
    contracted coordinate of the operands' products. -/
theorem gather_matmul_apply (lhs : FVec Ideal S512x4096 .f32) (rhs : FVec Ideal S4096x128 .f32) (r : Fin 512) (q : Fin 128) :
    matmul dot_S512x4096_S4096x128_S512x128_1_0_0_1_n_n none lhs rhs (constant (F := Ideal) S512x128 .f32 0x00000000#32) (ix2 r q)
      = ∑ k : Fin 4096, lhs (ix2 r k) * rhs (ix2 k q) := by
  simp only [matmul]
  rw [Ideal.matmul_constant_zero_apply,
    ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r q)
      ((contrEquiv1 dot_S512x4096_S4096x128_S512x128_1_0_0_1_n_n 4096 rfl rfl).symm k) = ix2 r k :=
    funext fun a => Fin.ext (by
      match a with
      | ⟨0, _⟩ => exact gather_lhs0 _ _
      | ⟨1, _⟩ => exact (dot_S512x4096_S4096x128_S512x128_1_0_0_1_n_n.lhsIdx_val_of_single rfl _ _).trans hk)
  have er : dot_S512x4096_S4096x128_S512x128_1_0_0_1_n_n.rhsIdx (ix2 r q)
      ((contrEquiv1 dot_S512x4096_S4096x128_S512x128_1_0_0_1_n_n 4096 rfl rfl).symm k) = ix2 k q :=
    funext fun a => Fin.ext (by
      match a with
      | ⟨0, _⟩ => exact (dot_S512x4096_S4096x128_S512x128_1_0_0_1_n_n.rhsIdx_val_of_single rfl _ _).trans hk
      | ⟨1, _⟩ => exact gather_rhs1 _ _)
  rw [el, er]

/-! ## The three payloads -/

/-- The dense layer of one edge type, stored as a [1, 4096, 128] block: at node `p`, channel `q`, the features' row `p`
    against the weights' column `q`, plus the bias at `q`. -/
theorem dense_apply (v20 : Vec Ideal S4096x1x128 .f32) (v23 : Vec Ideal S1x128x128 .f32) (v27 : Vec Ideal S1x128 .f32)
    (p : Fin 4096) (q : Fin 128) :
    k0_pay1 (F := Ideal) v20 v23 v27 (ix3 (0 : Fin 1) p q)
      = (∑ k : Fin 128, v20 (ix3 p (0 : Fin 1) k) * v23 (ix3 (0 : Fin 1) k q)) + v27 (ix2 (0 : Fin 1) q) := by
  unfold k0_pay1
  rw [shapeCast_ab_1ab_apply, addf_apply, dense_matmul_apply, broadcastTo_1b_ab_apply, shapeCast_shapeCast]
  congr 1
  exact Finset.sum_congr rfl fun k _ => by rw [drop_middle_apply, shapeCast_1ab_ab_apply]

/-- The constant the kernel names one third denotes one third. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- One edge type's share of the mean for a block of 512 nodes: at row `r`, channel `q`, the adjacency block's row
    `r` against the supports' column `q`, rectified, times one third. -/
theorem share_apply (v3 : Vec Ideal S1x512x4096 .f32) (v6 : Vec Ideal S1x4096x128 .f32) (r : Fin 512) (q : Fin 128) :
    k0_pay2 (F := Ideal) v3 v6 (ix2 r q)
      = max (∑ j : Fin 4096, v3 (ix3 (0 : Fin 1) r j) * v6 (ix3 (0 : Fin 1) j q)) 0 * ((1 / 3 : ℝ) : EReal) := by
  unfold k0_pay2
  rw [mulf_apply, maximumf_apply, gather_matmul_apply, broadcast_apply, broadcast_apply, inv_3]
  show max _ (Ideal.ofBits .f32 0x00000000#32) * _ = _
  rw [Ideal.ofBits_zero_f32]
  congr 2
  exact Finset.sum_congr rfl fun j _ => by rw [shapeCast_1ab_ab_apply, shapeCast_1ab_ab_apply]

/-- A later edge type adds its share to the block already accumulated. -/
theorem accum_apply (v3 : Vec Ideal S1x512x4096 .f32) (v6 : Vec Ideal S1x4096x128 .f32) (v19 : Vec Ideal S512x128 .f32)
    (r : Fin 512) (q : Fin 128) :
    k0_pay3 (F := Ideal) v3 v6 v19 (ix2 r q) = v19 (ix2 r q) + k0_pay2 (F := Ideal) v3 v6 (ix2 r q) := by
  unfold k0_pay3
  rw [addf_apply, shapeCast_self]

end Cert.Gcn.Payload

end
-- ==== Proof.GcnSpec.lean ====
/-
  The mean over three edge types of a rectified graph convolution, as one function of the four argument arrays.

  For each edge type t the node features of that type are mapped by a dense layer,
      support t p q = (sum over k of x[p,t,k] * W[t,k,q]) + b[t,q],
  every node p then gathers the supports of all nodes weighted by its adjacency row,
      aggregate t p q = sum over j of A[t,p,j] * support t j q,
  the result is rectified and scaled by one third, and the three terms are added, type 0 first:
      gcn p q = (term 0 p q + term 1 p q) + term 2 p q,   term t p q = max (aggregate t p q) 0 * (1/3).
  Everything is over the extended reals; no finiteness is assumed here.
-/
import Idealize.ShloMosaic.PureOps.Ideal
import Idealize.ShloMosaic.Lib.ValueIdx

noncomputable section

open scoped BigOperators

namespace Cert.Gcn

open Idealize.ShloMosaic Idealize.ShloMosaic.ValueIdx

/-- The adjacency tensors, one 4096 x 4096 matrix per edge type. -/
abbrev AdjShape : Shape := ⟨3, ![3, 4096, 4096]⟩
/-- The node features: node, edge type, channel. -/
abbrev FeatShape : Shape := ⟨3, ![4096, 3, 128]⟩
/-- The dense layers' weights: edge type, input channel, output channel. -/
abbrev WeightShape : Shape := ⟨3, ![3, 128, 128]⟩
/-- The dense layers' biases: edge type, output channel. -/
abbrev BiasShape : Shape := ⟨2, ![3, 128]⟩
/-- The result: node, channel. -/
abbrev OutShape : Shape := ⟨2, ![4096, 128]⟩

variable (A : AdjShape.Idx → EReal) (x : FeatShape.Idx → EReal) (W : WeightShape.Idx → EReal) (b : BiasShape.Idx → EReal)

/-- The dense layer of edge type `t` at node `p`, channel `q`. -/
def support (t : Fin 3) (p : Fin 4096) (q : Fin 128) : EReal :=
  (∑ k : Fin 128, x (ix3 p t k) * W (ix3 t k q)) + b (ix2 t q)

/-- Node `p` gathers every node's support along its adjacency row of edge type `t`. -/
def aggregate (t : Fin 3) (p : Fin 4096) (q : Fin 128) : EReal :=
  ∑ j : Fin 4096, A (ix3 t p j) * support x W b t j q

/-- One edge type's share of the mean: the aggregate rectified, times one third. -/
def term (t : Fin 3) (p : Fin 4096) (q : Fin 128) : EReal :=
  max (aggregate A x W b t p q) 0 * ((1 / 3 : ℝ) : EReal)

/-- The three shares added in the order of the edge types. -/
def gcn : OutShape.Idx → EReal :=
  fun i => (term A x W b 0 (i 0) (i 1) + term A x W b 1 (i 0) (i 1)) + term A x W b 2 (i 0) (i 1)

theorem gcn_apply (p : Fin 4096) (q : Fin 128) :
    gcn A x W b (ix2 p q) = (term A x W b 0 p q + term A x W b 1 p q) + term A x W b 2 p q := rfl

/-- A share of the mean is never negative. -/
theorem term_nonneg (t : Fin 3) (p : Fin 4096) (q : Fin 128) : 0 ≤ term A x W b t p q :=
  mul_nonneg (le_max_right _ _) (by exact_mod_cast (by norm_num : (0 : ℝ) ≤ 1 / 3))

end Cert.Gcn

end
-- ==== Proof.GcnIdealBlocks.lean ====
/-
  What the kernel's blocks hold, against the specification.

  The feature, weight and bias windows hold their whole arrays at every point; the adjacency window's block at point t
  is rows 512 (t / 3) .. 512 (t / 3) + 511 of the adjacency matrix of edge type t % 3.  A block's coordinate in its
  array is always block index times block size plus the coordinate inside the block, and a slab's coordinate is its
  offset plus the coordinate inside the slab; with the block indices and offsets decided over the 24 points, each read
  is one entry of an argument array.

  So the dense layer of edge type s is the specification's support of s; the share of point t is the specification's
  term of edge type t % 3 on the rows of row block t / 3 (the same sums once the indices are identified); and after
  the third edge type of a row block the accumulated block is share 0 plus share 1, plus share 2, which is the
  specification's value on those rows.
-/
import proofs.«142835_g51436528337343_cont_8to1c4_445_16_alg».proof.Proof.GcnIdealData
import proofs.«142835_g51436528337343_cont_8to1c4_445_16_alg».proof.Proof.GcnIdealPayload
import proofs.«142835_g51436528337343_cont_8to1c4_445_16_alg».proof.Proof.GcnSpec

set_option maxRecDepth 16384

noncomputable section

open scoped BigOperators

namespace Cert.KernelIdeal.Body

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-! ## The block indices of the three windows that hold whole arrays -/

theorem feat_index : ∀ t : Fin cfg0.N, cc0_transform_1 (grid0.coords t) = ![0, 0, 0] :=
  (by decide +kernel : ∀ t : Fin grid0.N, cc0_transform_1 (grid0.coords t) = ![0, 0, 0])
theorem weight_index : ∀ t : Fin cfg0.N, cc0_transform_2 (grid0.coords t) = ![0, 0, 0] :=
  (by decide +kernel : ∀ t : Fin grid0.N, cc0_transform_2 (grid0.coords t) = ![0, 0, 0])
theorem bias_index : ∀ t : Fin cfg0.N, cc0_transform_3 (grid0.coords t) = ![0, 0] :=
  (by decide +kernel : ∀ t : Fin grid0.N, cc0_transform_3 (grid0.coords t) = ![0, 0])

/-! ## The windows' blocks read at an index of the argument arrays -/

/-- The feature window's block is the whole feature array. -/
theorem feat_blk (t : Fin cfg0.N) (p : Fin 4096) (e : Fin 3) (k : Fin 128) :
    iblk (F := Ideal) m c 1 t (ix3 p e k) = (m ((c.tc : Thread nD τ).loc main_arg1)) (ix3 p e k) := by
  show V m c main_arg1 (((cfg0.win 1).blk t).view.emb (ix3 p e k)) = _
  refine congrArg (m ((c.tc : Thread nD τ).loc main_arg1)) ?_
  have hi := feat_index t
  funext a; apply Fin.ext
  match a with
  | ⟨0, _⟩ =>
    show win0_1.index t (0 : Fin 3) * 4096 + 1 * p.val = p.val
    have h0 : win0_1.index t (0 : Fin 3) = 0 := congrFun hi 0
    omega
  | ⟨1, _⟩ =>
    show win0_1.index t (1 : Fin 3) * 3 + 1 * e.val = e.val
    have h0 : win0_1.index t (1 : Fin 3) = 0 := congrFun hi 1
    omega
  | ⟨2, _⟩ =>
    show win0_1.index t (2 : Fin 3) * 128 + 1 * k.val = k.val
    have h0 : win0_1.index t (2 : Fin 3) = 0 := congrFun hi 2
    omega

/-- The weight window's block is the whole weight array. -/
theorem weight_blk (t : Fin cfg0.N) (e : Fin 3) (k q : Fin 128) :
    iblk (F := Ideal) m c 2 t (ix3 e k q) = (m ((c.tc : Thread nD τ).loc main_arg2)) (ix3 e k q) := by
  show V m c main_arg2 (((cfg0.win 2).blk t).view.emb (ix3 e k q)) = _
  refine congrArg (m ((c.tc : Thread nD τ).loc main_arg2)) ?_
  have hi := weight_index t
  funext a; apply Fin.ext
  match a with
  | ⟨0, _⟩ =>
    show win0_2.index t (0 : Fin 3) * 3 + 1 * e.val = e.val
    have h0 : win0_2.index t (0 : Fin 3) = 0 := congrFun hi 0
    omega
  | ⟨1, _⟩ =>
    show win0_2.index t (1 : Fin 3) * 128 + 1 * k.val = k.val
    have h0 : win0_2.index t (1 : Fin 3) = 0 := congrFun hi 1
    omega
  | ⟨2, _⟩ =>
    show win0_2.index t (2 : Fin 3) * 128 + 1 * q.val = q.val
    have h0 : win0_2.index t (2 : Fin 3) = 0 := congrFun hi 2
    omega

/-- The bias window's block is the whole bias array. -/
theorem bias_blk (t : Fin cfg0.N) (e : Fin 3) (q : Fin 128) :
    iblk (F := Ideal) m c 3 t (ix2 e q) = (m ((c.tc : Thread nD τ).loc main_arg3)) (ix2 e q) := by
  show V m c main_arg3 (((cfg0.win 3).blk t).view.emb (ix2 e q)) = _
  refine congrArg (m ((c.tc : Thread nD τ).loc main_arg3)) ?_
  have hi := bias_index t
  funext a; apply Fin.ext
  match a with
  | ⟨0, _⟩ =>
    show win0_3.index t (0 : Fin 2) * 3 + 1 * e.val = e.val
    have h0 : win0_3.index t (0 : Fin 2) = 0 := congrFun hi 0
    omega
  | ⟨1, _⟩ =>
    show win0_3.index t (1 : Fin 2) * 128 + 1 * q.val = q.val
    have h0 : win0_3.index t (1 : Fin 2) = 0 := congrFun hi 1
    omega

/-- Row block `t / 3` of the adjacency matrix of edge type `t % 3`: the rows `512 (t / 3) + r`. -/
theorem row_lt (t : Fin cfg0.N) (r : Fin 512) : 512 * (t.val / 3) + r.val < 4096 := by
  have ht : t.val < 24 := lt_of_lt_of_eq t.isLt N_0
  have hr := r.isLt
  omega

/-- The adjacency window's block at point `t`, at row `r` and column `j`. -/
theorem adj_blk (t : Fin cfg0.N) (r : Fin 512) (j : Fin 4096) :
    iblk (F := Ideal) m c 0 t (ix3 (0 : Fin 1) r j) = (m ((c.tc : Thread nD τ).loc main_arg0)) (ix3 (edgeOf t) ⟨512 * (t.val / 3) + r.val, row_lt t r⟩ j) := by
  show V m c main_arg0 (((cfg0.win 0).blk t).view.emb (ix3 (0 : Fin 1) r j)) = _
  refine congrArg (m ((c.tc : Thread nD τ).loc main_arg0)) ?_
  have hi := adj_index t
  funext a; apply Fin.ext
  match a with
  | ⟨0, _⟩ =>
    show win0_0.index t (0 : Fin 3) * 1 + 1 * 0 = t.val % 3
    have h0 : win0_0.index t (0 : Fin 3) = t.val % 3 := congrFun hi 0
    omega
  | ⟨1, _⟩ =>
    show win0_0.index t (1 : Fin 3) * 512 + 1 * r.val = 512 * (t.val / 3) + r.val
    have h0 : win0_0.index t (1 : Fin 3) = t.val / 3 := congrFun hi 1
    omega
  | ⟨2, _⟩ =>
    show win0_0.index t (2 : Fin 3) * 4096 + 1 * j.val = j.val
    have h0 : win0_0.index t (2 : Fin 3) = 0 := congrFun hi 2
    omega

/-! ## The slabs the body loads, read at an index -/

/-- The feature slab of a point's edge type. -/
theorem featSlab_apply (t : Fin cfg0.N) (h1 : k0_cond1 (grid0.coords t) = 1#1) (X1 : Vec Ideal S4096x3x128 .f32)
    (p : Fin 4096) (k : Fin 128) :
    featSlab (grid0.coords t) h1 X1 (ix3 p (0 : Fin 1) k) = X1 (ix3 p (edgeOf t) k) := by
  show X1 ((Rect.unit (s := S4096x3x128) (k0_off1 (grid0.coords t)) S4096x1x128.size (k0_off1_inb (grid0.coords t) h1)).idx (ix3 p (0 : Fin 1) k)) = _
  refine congrArg X1 ?_
  have ho := feat_off t
  funext a; apply Fin.ext
  match a with
  | ⟨0, _⟩ =>
    show k0_off1 (grid0.coords t) 0 + 1 * p.val = p.val
    have h0 : k0_off1 (grid0.coords t) 0 = 0 := congrFun ho 0
    omega
  | ⟨1, _⟩ =>
    show k0_off1 (grid0.coords t) 1 + 1 * 0 = t.val % 3
    have h0 : k0_off1 (grid0.coords t) 1 = t.val % 3 := congrFun ho 1
    omega
  | ⟨2, _⟩ =>
    show k0_off1 (grid0.coords t) 2 + 1 * k.val = k.val
    have h0 : k0_off1 (grid0.coords t) 2 = 0 := congrFun ho 2
    omega

/-- The weight slab of a point's edge type. -/
theorem weightSlab_apply (t : Fin cfg0.N) (h1 : k0_cond1 (grid0.coords t) = 1#1) (X2 : Vec Ideal S3x128x128 .f32)
    (k q : Fin 128) :
    weightSlab (grid0.coords t) h1 X2 (ix3 (0 : Fin 1) k q) = X2 (ix3 (edgeOf t) k q) := by
  show X2 ((Rect.unit (s := S3x128x128) (k0_off2 (grid0.coords t)) S1x128x128.size (k0_off2_inb (grid0.coords t) h1)).idx (ix3 (0 : Fin 1) k q)) = _
  refine congrArg X2 ?_
  have ho := weight_off t
  funext a; apply Fin.ext
  match a with
  | ⟨0, _⟩ =>
    show k0_off2 (grid0.coords t) 0 + 1 * 0 = t.val % 3
    have h0 : k0_off2 (grid0.coords t) 0 = t.val % 3 := congrFun ho 0
    omega
  | ⟨1, _⟩ =>
    show k0_off2 (grid0.coords t) 1 + 1 * k.val = k.val
    have h0 : k0_off2 (grid0.coords t) 1 = 0 := congrFun ho 1
    omega
  | ⟨2, _⟩ =>
    show k0_off2 (grid0.coords t) 2 + 1 * q.val = q.val
    have h0 : k0_off2 (grid0.coords t) 2 = 0 := congrFun ho 2
    omega

/-- The bias row of a point's edge type. -/
theorem biasRow_apply (t : Fin cfg0.N) (h1 : k0_cond1 (grid0.coords t) = 1#1) (X3 : Vec Ideal S3x128 .f32) (q : Fin 128) :
    biasRow (grid0.coords t) h1 X3 (ix2 (0 : Fin 1) q) = X3 (ix2 (edgeOf t) q) := by
  show X3 ((Rect.unit (s := S3x128) (k0_off3 (grid0.coords t)) S1x128.size (k0_off3_inb (grid0.coords t) h1)).idx (ix2 (0 : Fin 1) q)) = _
  refine congrArg X3 ?_
  have ho := bias_off t
  funext a; apply Fin.ext
  match a with
  | ⟨0, _⟩ =>
    show k0_off3 (grid0.coords t) 0 + 1 * 0 = t.val % 3
    have h0 : k0_off3 (grid0.coords t) 0 = t.val % 3 := congrFun ho 0
    omega
  | ⟨1, _⟩ =>
    show k0_off3 (grid0.coords t) 1 + 1 * q.val = q.val
    have h0 : k0_off3 (grid0.coords t) 1 = 0 := congrFun ho 1
    omega

/-! ## The dense layers, the shares and the accumulated block against the specification -/

theorem edgeOf_firstPt (s : Fin 3) : edgeOf (firstPt s) = s := Fin.ext (Nat.mod_eq_of_lt s.isLt)

/-- The dense layer of edge type `s` is the specification's support. -/
theorem dense_spec (s : Fin 3) (p : Fin 4096) (q : Fin 128) :
    dense (F := Ideal) m c s (ix3 (0 : Fin 1) p q) = Cert.Gcn.support (m ((c.tc : Thread nD τ).loc main_arg1)) (m ((c.tc : Thread nD τ).loc main_arg2)) (m ((c.tc : Thread nD τ).loc main_arg3)) s p q := by
  unfold dense denseOf
  refine (Cert.Gcn.Payload.dense_apply _ _ _ p q).trans ?_
  unfold Cert.Gcn.support
  congr 1
  · refine Finset.sum_congr rfl fun k _ => ?_
    rw [featSlab_apply, weightSlab_apply, edgeOf_firstPt]
    exact congrArg₂ (· * ·) (feat_blk m c (firstPt s) p s k) (weight_blk m c (firstPt s) s k q)
  · rw [biasRow_apply, edgeOf_firstPt]
    exact bias_blk m c (firstPt s) s q

/-- The share of point `t` is the specification's term of its edge type on its rows. -/
theorem share_spec (t : Fin cfg0.N) (r : Fin 512) (q : Fin 128) :
    share (F := Ideal) m c t (ix2 r q)
      = Cert.Gcn.term (m ((c.tc : Thread nD τ).loc main_arg0)) (m ((c.tc : Thread nD τ).loc main_arg1)) (m ((c.tc : Thread nD τ).loc main_arg2)) (m ((c.tc : Thread nD τ).loc main_arg3)) (edgeOf t) ⟨512 * (t.val / 3) + r.val, row_lt t r⟩ q := by
  unfold share
  refine (Cert.Gcn.Payload.share_apply _ _ r q).trans ?_
  unfold Cert.Gcn.term Cert.Gcn.aggregate
  congr 2
  refine Finset.sum_congr rfl fun j _ => ?_
  exact congrArg₂ (· * ·) (adj_blk m c t r j) (dense_spec m c (edgeOf t) j q)

/-- The same with the edge type and the row named. -/
theorem share_spec_of (t : Fin cfg0.N) (e : Fin 3) (p : Fin 4096) (r : Fin 512) (q : Fin 128)
    (he : t.val % 3 = e.val) (hp : 512 * (t.val / 3) + r.val = p.val) :
    share (F := Ideal) m c t (ix2 r q) = Cert.Gcn.term (m ((c.tc : Thread nD τ).loc main_arg0)) (m ((c.tc : Thread nD τ).loc main_arg1)) (m ((c.tc : Thread nD τ).loc main_arg2)) (m ((c.tc : Thread nD τ).loc main_arg3)) e p q := by
  rw [share_spec]
  have e1 : edgeOf t = e := Fin.ext he
  have e2 : (⟨512 * (t.val / 3) + r.val, row_lt t r⟩ : Fin 4096) = p := Fin.ext hp
  rw [e1, e2]

/-- At edge types 1 and 2 the block is what the point before left plus this point's share. -/
theorem acc_step_apply (t : Fin cfg0.N) (h : t.val % 3 ≠ 0) (r : Fin 512) (q : Fin 128) :
    acc (F := Ideal) m c t.val t.isLt (ix2 r q)
      = acc (F := Ideal) m c (t.val - 1) (Nat.lt_of_le_of_lt (Nat.sub_le _ _) t.isLt) (ix2 r q) + share (F := Ideal) m c t (ix2 r q) := by
  rw [acc_step m c t h]
  exact Cert.Gcn.Payload.accum_apply _ _ _ r q

/-- After edge type 2 the block holds the specification's value on its rows. -/
theorem acc_spec (t : Fin cfg0.N) (h : t.val % 3 = 2) (r : Fin 512) (q : Fin 128) :
    acc (F := Ideal) m c t.val t.isLt (ix2 r q)
      = Cert.Gcn.gcn (m ((c.tc : Thread nD τ).loc main_arg0)) (m ((c.tc : Thread nD τ).loc main_arg1)) (m ((c.tc : Thread nD τ).loc main_arg2)) (m ((c.tc : Thread nD τ).loc main_arg3)) (ix2 ⟨512 * (t.val / 3) + r.val, row_lt t r⟩ q) := by
  have hlt := t.isLt
  have h1lt : t.val - 1 < cfg0.N := Nat.lt_of_le_of_lt (Nat.sub_le _ _) hlt
  have h2lt : t.val - 1 - 1 < cfg0.N := Nat.lt_of_le_of_lt (Nat.sub_le _ _) h1lt
  have s2 := acc_step_apply m c t (by omega) r q
  have s1 := acc_step_apply m c ⟨t.val - 1, h1lt⟩ (by show (t.val - 1) % 3 ≠ 0; omega) r q
  have s0 := congrFun (acc_init m c ⟨t.val - 1 - 1, h2lt⟩ (by show (t.val - 1 - 1) % 3 = 0; omega)) (ix2 r q)
  rw [s2, s1, s0, Cert.Gcn.gcn_apply,
    share_spec_of m c ⟨t.val - 1 - 1, h2lt⟩ 0 ⟨512 * (t.val / 3) + r.val, row_lt t r⟩ r q (by show (t.val - 1 - 1) % 3 = 0; omega)
      (by show 512 * ((t.val - 1 - 1) / 3) + r.val = 512 * (t.val / 3) + r.val; omega),
    share_spec_of m c ⟨t.val - 1, h1lt⟩ 1 ⟨512 * (t.val / 3) + r.val, row_lt t r⟩ r q (by show (t.val - 1) % 3 = 1; omega)
      (by show 512 * ((t.val - 1) / 3) + r.val = 512 * (t.val / 3) + r.val; omega),
    share_spec_of m c t 2 ⟨512 * (t.val / 3) + r.val, row_lt t r⟩ r q h rfl]

end Cert.KernelIdeal.Body

end
-- ==== Proof.GcnIdealFinal.lean ====
/-
  From the row blocks to the output array.

  The output block of row block b is written back once, after the third edge type (point 3 b + 2), when it holds the
  specification's value on rows 512 b .. 512 b + 511.  A block's coordinate in the array is block index times block
  size plus the coordinate inside the block, and the output's block index at point t is (t / 3, 0), so what that point
  writes back is the specification read through its block.  Row p lies in row block p / 512, and 3 (p / 512) + 2 is
  one of the 24 points because p < 4096; so every entry of the [4096, 128] array is written back, and the array ends
  as the specification of the four argument arrays.
-/
import proofs.«142835_g51436528337343_cont_8to1c4_445_16_alg».proof.Proof.GcnIdealBlocks
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- What a point writes back after its row block's third edge type is that row block of the specification. -/
theorem flushed_eq (t : Fin cfg0.N) (hf : (cfg0.win 4).flush t = true) :
    (dats (F := Ideal) m 0 c).flushed 4 t
      = ((cfg0.win 4).blk t).view.read (Elt Ideal) (Cert.Gcn.gcn (m ((c.tc : Thread nD τ).loc main_arg0)) (m ((c.tc : Thread nD τ).loc main_arg1)) (m ((c.tc : Thread nD τ).loc main_arg2)) (m ((c.tc : Thread nD τ).loc main_arg3))) := by
  have h2 : t.val % 3 = 2 := (flush0_4 t).mp hf
  show (cfg0.win 4).cut (grid0.coords t) ((dats m 0 c).after 4 t) = _
  rw [after4 m c t]
  funext j
  obtain ⟨r, q, rfl⟩ : ∃ (r : Fin 512) (q : Fin 128), j = ix2 r q := ⟨j 0, j 1, eq_ix2 j⟩
  refine (acc_spec m c t h2 r q).trans ?_
  show _ = (Cert.Gcn.gcn (m ((c.tc : Thread nD τ).loc main_arg0)) (m ((c.tc : Thread nD τ).loc main_arg1)) (m ((c.tc : Thread nD τ).loc main_arg2)) (m ((c.tc : Thread nD τ).loc main_arg3))) (((cfg0.win 4).blk t).view.emb (ix2 r q))
  refine congrArg (Cert.Gcn.gcn (m ((c.tc : Thread nD τ).loc main_arg0)) (m ((c.tc : Thread nD τ).loc main_arg1)) (m ((c.tc : Thread nD τ).loc main_arg2)) (m ((c.tc : Thread nD τ).loc main_arg3))) ?_
  have hi := out_index t
  funext a; apply Fin.ext
  match a with
  | ⟨0, _⟩ =>
    show 512 * (t.val / 3) + r.val = win0_4.index t (0 : Fin 2) * 512 + 1 * r.val
    have h0 : win0_4.index t (0 : Fin 2) = t.val / 3 := congrFun hi 0
    omega
  | ⟨1, _⟩ =>
    show q.val = win0_4.index t (1 : Fin 2) * 128 + 1 * q.val
    have h0 : win0_4.index t (1 : Fin 2) = 0 := congrFun hi 1
    omega

/-- An index of the output array is in point `t`'s block iff each coordinate is in the block's range on its axis. -/
theorem mem_out_blk (t : Fin cfg0.N) (i : S4096x128.Idx) :
    i ∈ ((cfg0.win 4).blk t).view.set
      ↔ ∀ a : Fin 2, win0_4.index t a * S512x128.size a ≤ (i a).val ∧ (i a).val < win0_4.index t a * S512x128.size a + S512x128.size a := by
  show i ∈ ((View.whole main_v0).slice (win0_4.rect t)).set ↔ _
  rw [View.set_slice_whole, Rect.mem_set_unit]
  exact Iff.rfl

/-- Every entry of the output array is written back: row `p` lies in row block `p / 512`, whose third edge type is
    point `3 (p / 512) + 2`. -/
theorem covered (i : S4096x128.Idx) : ∃ t : Fin cfg0.N, (cfg0.win 4).flush t = true ∧ i ∈ ((cfg0.win 4).blk t).view.set := by
  have hp : (i 0).val < 4096 := (i 0).isLt
  have hq : (i 1).val < 128 := (i 1).isLt
  have hN : 3 * ((i 0).val / 512) + 2 < cfg0.N := by
    show 3 * ((i 0).val / 512) + 2 < grid0.N
    rw [N_0]; omega
  refine ⟨⟨3 * ((i 0).val / 512) + 2, hN⟩, (flush0_4 _).mpr (by show (3 * ((i 0).val / 512) + 2) % 3 = 2; omega), ?_⟩
  rw [mem_out_blk]
  have hi := out_index ⟨3 * ((i 0).val / 512) + 2, hN⟩
  intro a
  match a with
  | ⟨0, _⟩ =>
    show win0_4.index ⟨3 * ((i 0).val / 512) + 2, hN⟩ (0 : Fin 2) * 512 ≤ (i 0).val
      ∧ (i 0).val < win0_4.index ⟨3 * ((i 0).val / 512) + 2, hN⟩ (0 : Fin 2) * 512 + 512
    have h0 : win0_4.index ⟨3 * ((i 0).val / 512) + 2, hN⟩ (0 : Fin 2) = (3 * ((i 0).val / 512) + 2) / 3 := congrFun hi 0
    omega
  | ⟨1, _⟩ =>
    show win0_4.index ⟨3 * ((i 0).val / 512) + 2, hN⟩ (1 : Fin 2) * 128 ≤ (i 1).val
      ∧ (i 1).val < win0_4.index ⟨3 * ((i 0).val / 512) + 2, hN⟩ (1 : Fin 2) * 128 + 128
    have h0 : win0_4.index ⟨3 * ((i 0).val / 512) + 2, hN⟩ (1 : Fin 2) = 0 := congrFun hi 1
    omega

/-- After the run the output array is the specification of the argument arrays. -/
theorem final : (dats (F := Ideal) m 0 c).arrAt 4 cfg0.N
    = (Cert.Gcn.gcn (m ((c.tc : Thread nD τ).loc main_arg0)) (m ((c.tc : Thread nD τ).loc main_arg1)) (m ((c.tc : Thread nD τ).loc main_arg2)) (m ((c.tc : Thread nD τ).loc main_arg3))) :=
  (dats (F := Ideal) m 0 c).arrAt_eq_of_cover 4 _ (fun t hf => flushed_eq m c t hf) (covered)

end Cert.KernelIdeal.Body

end
-- ==== Proof.GcnIdealValue.lean ====
/-
  The idealized kernel's run with its result named: the output array ends holding the mean over the three edge
  types of the rectified graph convolution of the argument arrays, and the arguments end unchanged.
-/
import proofs.«142835_g51436528337343_cont_8to1c4_445_16_alg».proof.Proof.GcnIdealRun
import proofs.«142835_g51436528337343_cont_8to1c4_445_16_alg».proof.Proof.GcnIdealFinal
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt Ideal) ℓ) (ρ : Dev nD → PrngReg)

/-- Every weakly fair execution terminates with the result array at the specification's function of the argument
    arrays as launched: the frame run's post read at the output window's array, which the write-backs fill block
    by block. -/
theorem run_gcn : θ_run (defs (F := Ideal)) (onTc (τ := τ) (main (F := Ideal))) ⟨m, fun _ => 0, ρ⟩ (fun r => ∀ c : Dev nD,
      r.2.mem ((c.tc : Thread nD τ).loc main_v0)
        = Cert.Gcn.gcn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Body

end
-- ==== Proof.GcnMean.lean ====
/-
  The mean of three numbers on the extended reals.

  The reference adds three rectified aggregates to a zero and divides the total by the real 3; the specification
  multiplies each of the three by one third and adds the products.  Division by a non-zero real is the product with
  its reciprocal at every extended real, and the product with a non-negative REAL distributes over every sum of
  extended reals (the only sums that do not distribute are those that an infinite factor turns over), so the two
  arrangements agree whatever the three numbers are.
-/
import Idealize.ShloMosaic.PureOps.Ideal
import Idealize.ShloMosaic.PureOps.Ideal.Laws

noncomputable section

namespace Cert.Gcn

open Idealize.ShloMosaic

/-- The single-precision word `0x40400000` (sign 0, exponent 128, significand 1.5) denotes the real 3. -/
theorem ofBits_three : Ideal.ofBits .f32 0x40400000#32 = ((3 : ℝ) : EReal) := by
  simp [Ideal.ofBits, Ideal.ieee, -EReal.coe_mul]; norm_num

/-- One third is a non-negative real. -/
theorem third_nonneg : (0 : EReal) ≤ ((1 / 3 : ℝ) : EReal) := by
  exact_mod_cast (by norm_num : (0 : ℝ) ≤ 1 / 3)

/-- The product with one third distributes over any sum of two extended reals. -/
theorem add_mul_third (y z : EReal) :
    (y + z) * ((1 / 3 : ℝ) : EReal) = y * ((1 / 3 : ℝ) : EReal) + z * ((1 / 3 : ℝ) : EReal) :=
  EReal.right_distrib_of_nonneg_of_ne_top third_nonneg (EReal.coe_ne_top _) y z

/-- Zero plus the sum of three numbers, divided by the real 3, is the sum of their thirds, added in the same order. -/
theorem mean_three (r0 r1 r2 : EReal) :
    Ideal.div (0 + ((r0 + r1) + r2)) ((3 : ℝ) : EReal)
      = (r0 * ((1 / 3 : ℝ) : EReal) + r1 * ((1 / 3 : ℝ) : EReal)) + r2 * ((1 / 3 : ℝ) : EReal) := by
  rw [Ideal.div_coe (by norm_num : (3 : ℝ) ≠ 0), zero_add, add_mul_third, add_mul_third]

end Cert.Gcn

end
-- ==== Proof.GcnBranch0.lean ====
/-
  Edge type 0 of the reference, stage by stage, at node p and channel q.

  The reference takes the first slice of the features, of the weights, of the biases and of the adjacency tensor,
  drops the unit axis of each, and computes
      relu (A_0 · (x_0 · W_0 + b_0)).
  Each layout operation reads one entry of an argument array; the only arithmetic in the index equations is that a
  row-major position r·n + c with c < n has quotient r and remainder c.  The two contractions are sums over the
  contracted coordinate of the operands' products, so the dense layer with its bias is the specification's support,
  its product with the adjacency slice is the aggregate, and the maximum with the zero constant is the rectified
  aggregate.
-/
import proofs.«142835_g51436528337343_cont_8to1c4_445_16_alg».proof.Defs
import proofs.«142835_g51436528337343_cont_8to1c4_445_16_alg».proof.Proof.Gen.ReferenceIdeal.Read
import proofs.«142835_g51436528337343_cont_8to1c4_445_16_alg».proof.Proof.GcnSpec

noncomputable section

open scoped BigOperators

namespace Cert.Gcn.Reference.Edge0

open Idealize.ShloMosaic Idealize.ShloMosaic.ValueIdx Cert.ReferenceIdeal Cert.ReferenceIdeal.Gen Cert.ReferenceIdeal.Read

variable (A : AdjShape.Idx → EReal) (x : FeatShape.Idx → EReal) (W : WeightShape.Idx → EReal) (b : BiasShape.Idx → EReal)

/-! ### Where the layout operations read the argument arrays -/

/-- Row `p`, column `j` of the adjacency slice of this edge type, reshaped to a matrix, is entry `(0, p, j)` of the adjacency tensor. -/
theorem adj_idx (p j : Fin 4096) : idx_main_v10 (idx_main_v11 (ix2 p j)) = ix3 (0 : Fin 3) p j := by
  funext a; apply Fin.ext
  match a with
  | ⟨0, _⟩ => rfl
  | ⟨1, _⟩ => show (p.val * 4096 + j.val) / 4096 % 4096 = p.val; omega
  | ⟨2, _⟩ => show (p.val * 4096 + j.val) % 4096 = j.val; omega

/-- Row `p`, channel `k` of the feature slice of this edge type, reshaped to a matrix, is entry `(p, 0, k)` of the features. -/
theorem feat_idx (p : Fin 4096) (k : Fin 128) : idx_main_v0 (idx_main_v1 (ix2 p k)) = ix3 p (0 : Fin 3) k := by
  funext a; apply Fin.ext
  match a with
  | ⟨0, _⟩ => show (p.val * 128 + k.val) / 128 = p.val; omega
  | ⟨1, _⟩ => rfl
  | ⟨2, _⟩ => show (p.val * 128 + k.val) % 128 = k.val; omega

/-- Row `k`, column `q` of the weight slice of this edge type, reshaped to a matrix, is entry `(0, k, q)` of the weights. -/
theorem weight_idx (k q : Fin 128) : idx_main_v2 (idx_main_v3 (ix2 k q)) = ix3 (0 : Fin 3) k q := by
  funext a; apply Fin.ext
  match a with
  | ⟨0, _⟩ => rfl
  | ⟨1, _⟩ => show (k.val * 128 + q.val) / 128 % 128 = k.val; omega
  | ⟨2, _⟩ => show (k.val * 128 + q.val) % 128 = q.val; omega

/-- The bias row of this edge type, broadcast over the nodes, holds entry `(0, q)` of the biases at every node. -/
theorem bias_idx (p : Fin 4096) (q : Fin 128) :
    idx_main_v5 (idx_main_v6 (idx_main_v7 (idx_main_v8 (ix2 p q)))) = ix2 (0 : Fin 3) q := by
  funext a; apply Fin.ext
  match a with
  | ⟨0, _⟩ => rfl
  | ⟨1, _⟩ => show q.val % 128 = q.val; omega

theorem adj_apply (p j : Fin 4096) : val_main_v11 (F := Ideal) A (ix2 p j) = A (ix3 0 p j) := by
  rw [val_main_v11_apply, val_main_v10_apply, adj_idx]

theorem feat_apply (p : Fin 4096) (k : Fin 128) : val_main_v1 (F := Ideal) x (ix2 p k) = x (ix3 p 0 k) := by
  rw [val_main_v1_apply, val_main_v0_apply, feat_idx]

theorem weight_apply (k q : Fin 128) : val_main_v3 (F := Ideal) W (ix2 k q) = W (ix3 0 k q) := by
  rw [val_main_v3_apply, val_main_v2_apply, weight_idx]

theorem bias_apply (p : Fin 4096) (q : Fin 128) : val_main_v8 (F := Ideal) b (ix2 p q) = b (ix2 0 q) := by
  rw [val_main_v8_apply, val_main_v7_apply, val_main_v6_apply, val_main_v5_apply, bias_idx]

/-! ### The two contractions' operand indices -/

theorem dense_lidx (p : Fin 4096) (q k : Fin 128) : lidx_main_v4 (ix2 p q) k = ix2 p k := by
  funext a; match a with
  | ⟨0, _⟩ => rfl
  | ⟨1, _⟩ => rfl

theorem dense_ridx (p : Fin 4096) (q k : Fin 128) : ridx_main_v4 (ix2 p q) k = ix2 k q := by
  funext a; match a with
  | ⟨0, _⟩ => rfl
  | ⟨1, _⟩ => rfl

theorem gather_lidx (p : Fin 4096) (q : Fin 128) (j : Fin 4096) : lidx_main_v12 (ix2 p q) j = ix2 p j := by
  funext a; match a with
  | ⟨0, _⟩ => rfl
  | ⟨1, _⟩ => rfl

theorem gather_ridx (p : Fin 4096) (q : Fin 128) (j : Fin 4096) : ridx_main_v12 (ix2 p q) j = ix2 j q := by
  funext a; match a with
  | ⟨0, _⟩ => rfl
  | ⟨1, _⟩ => rfl

/-! ### The stages of this edge type, read at node `p`, channel `q` -/

/-- The dense layer plus its bias is the specification's support. -/
theorem support_apply (p : Fin 4096) (q : Fin 128) :
    val_main_v9 (F := Ideal) x W b (ix2 p q) = support x W b 0 p q := by
  rw [val_main_v9_apply, val_main_v4_apply, bias_apply, Ideal.addf_def]
  unfold support
  congr 1
  exact Finset.sum_congr rfl fun k _ => by rw [dense_lidx, dense_ridx, feat_apply, weight_apply]

/-- The product with the adjacency slice is the specification's aggregate. -/
theorem aggregate_apply (p : Fin 4096) (q : Fin 128) :
    val_main_v12 (F := Ideal) A x W b (ix2 p q) = aggregate A x W b 0 p q := by
  rw [val_main_v12_apply]
  unfold aggregate
  exact Finset.sum_congr rfl fun j _ => by rw [gather_lidx, gather_ridx, adj_apply, support_apply]

/-- The rectified aggregate: the maximum with the zero word, which denotes 0. -/
theorem relu_apply (p : Fin 4096) (q : Fin 128) :
    val_main_v13 (F := Ideal) A x W b (ix2 p q) = max (aggregate A x W b 0 p q) 0 := by
  rw [val_main_v13_apply, val_main_call0_v0_apply, val_main_call0_cst_apply, aggregate_apply,
    Ideal.maximumf_def, Ideal.ofBits_def, Ideal.ofBits_zero_f32]

end Cert.Gcn.Reference.Edge0

end
-- ==== Proof.GcnBranch1.lean ====
/-
  Edge type 1 of the reference, stage by stage, at node p and channel q.

  The reference takes the second slice of the features, of the weights, of the biases and of the adjacency tensor,
  drops the unit axis of each, and computes
      relu (A_1 · (x_1 · W_1 + b_1)).
  Each layout operation reads one entry of an argument array; the only arithmetic in the index equations is that a
  row-major position r·n + c with c < n has quotient r and remainder c.  The two contractions are sums over the
  contracted coordinate of the operands' products, so the dense layer with its bias is the specification's support,
  its product with the adjacency slice is the aggregate, and the maximum with the zero constant is the rectified
  aggregate.
-/
import proofs.«142835_g51436528337343_cont_8to1c4_445_16_alg».proof.Defs
import proofs.«142835_g51436528337343_cont_8to1c4_445_16_alg».proof.Proof.Gen.ReferenceIdeal.Read
import proofs.«142835_g51436528337343_cont_8to1c4_445_16_alg».proof.Proof.GcnSpec

noncomputable section

open scoped BigOperators

namespace Cert.Gcn.Reference.Edge1

open Idealize.ShloMosaic Idealize.ShloMosaic.ValueIdx Cert.ReferenceIdeal Cert.ReferenceIdeal.Gen Cert.ReferenceIdeal.Read

variable (A : AdjShape.Idx → EReal) (x : FeatShape.Idx → EReal) (W : WeightShape.Idx → EReal) (b : BiasShape.Idx → EReal)

/-! ### Where the layout operations read the argument arrays -/

/-- Row `p`, column `j` of the adjacency slice of this edge type, reshaped to a matrix, is entry `(1, p, j)` of the adjacency tensor. -/
theorem adj_idx (p j : Fin 4096) : idx_main_v24 (idx_main_v25 (ix2 p j)) = ix3 (1 : Fin 3) p j := by
  funext a; apply Fin.ext
  match a with
  | ⟨0, _⟩ => rfl
  | ⟨1, _⟩ => show (p.val * 4096 + j.val) / 4096 % 4096 = p.val; omega
  | ⟨2, _⟩ => show (p.val * 4096 + j.val) % 4096 = j.val; omega

/-- Row `p`, channel `k` of the feature slice of this edge type, reshaped to a matrix, is entry `(p, 1, k)` of the features. -/
theorem feat_idx (p : Fin 4096) (k : Fin 128) : idx_main_v14 (idx_main_v15 (ix2 p k)) = ix3 p (1 : Fin 3) k := by
  funext a; apply Fin.ext
  match a with
  | ⟨0, _⟩ => show (p.val * 128 + k.val) / 128 = p.val; omega
  | ⟨1, _⟩ => rfl
  | ⟨2, _⟩ => show (p.val * 128 + k.val) % 128 = k.val; omega

/-- Row `k`, column `q` of the weight slice of this edge type, reshaped to a matrix, is entry `(1, k, q)` of the weights. -/
theorem weight_idx (k q : Fin 128) : idx_main_v16 (idx_main_v17 (ix2 k q)) = ix3 (1 : Fin 3) k q := by
  funext a; apply Fin.ext
  match a with
  | ⟨0, _⟩ => rfl
  | ⟨1, _⟩ => show (k.val * 128 + q.val) / 128 % 128 = k.val; omega
  | ⟨2, _⟩ => show (k.val * 128 + q.val) % 128 = q.val; omega

/-- The bias row of this edge type, broadcast over the nodes, holds entry `(1, q)` of the biases at every node. -/
theorem bias_idx (p : Fin 4096) (q : Fin 128) :
    idx_main_v19 (idx_main_v20 (idx_main_v21 (idx_main_v22 (ix2 p q)))) = ix2 (1 : Fin 3) q := by
  funext a; apply Fin.ext
  match a with
  | ⟨0, _⟩ => rfl
  | ⟨1, _⟩ => show q.val % 128 = q.val; omega

theorem adj_apply (p j : Fin 4096) : val_main_v25 (F := Ideal) A (ix2 p j) = A (ix3 1 p j) := by
  rw [val_main_v25_apply, val_main_v24_apply, adj_idx]

theorem feat_apply (p : Fin 4096) (k : Fin 128) : val_main_v15 (F := Ideal) x (ix2 p k) = x (ix3 p 1 k) := by
  rw [val_main_v15_apply, val_main_v14_apply, feat_idx]

theorem weight_apply (k q : Fin 128) : val_main_v17 (F := Ideal) W (ix2 k q) = W (ix3 1 k q) := by
  rw [val_main_v17_apply, val_main_v16_apply, weight_idx]

theorem bias_apply (p : Fin 4096) (q : Fin 128) : val_main_v22 (F := Ideal) b (ix2 p q) = b (ix2 1 q) := by
  rw [val_main_v22_apply, val_main_v21_apply, val_main_v20_apply, val_main_v19_apply, bias_idx]

/-! ### The two contractions' operand indices -/

theorem dense_lidx (p : Fin 4096) (q k : Fin 128) : lidx_main_v18 (ix2 p q) k = ix2 p k := by
  funext a; match a with
  | ⟨0, _⟩ => rfl
  | ⟨1, _⟩ => rfl

theorem dense_ridx (p : Fin 4096) (q k : Fin 128) : ridx_main_v18 (ix2 p q) k = ix2 k q := by
  funext a; match a with
  | ⟨0, _⟩ => rfl
  | ⟨1, _⟩ => rfl

theorem gather_lidx (p : Fin 4096) (q : Fin 128) (j : Fin 4096) : lidx_main_v26 (ix2 p q) j = ix2 p j := by
  funext a; match a with
  | ⟨0, _⟩ => rfl
  | ⟨1, _⟩ => rfl

theorem gather_ridx (p : Fin 4096) (q : Fin 128) (j : Fin 4096) : ridx_main_v26 (ix2 p q) j = ix2 j q := by
  funext a; match a with
  | ⟨0, _⟩ => rfl
  | ⟨1, _⟩ => rfl

/-! ### The stages of this edge type, read at node `p`, channel `q` -/

/-- The dense layer plus its bias is the specification's support. -/
theorem support_apply (p : Fin 4096) (q : Fin 128) :
    val_main_v23 (F := Ideal) x W b (ix2 p q) = support x W b 1 p q := by
  rw [val_main_v23_apply, val_main_v18_apply, bias_apply, Ideal.addf_def]
  unfold support
  congr 1
  exact Finset.sum_congr rfl fun k _ => by rw [dense_lidx, dense_ridx, feat_apply, weight_apply]

/-- The product with the adjacency slice is the specification's aggregate. -/
theorem aggregate_apply (p : Fin 4096) (q : Fin 128) :
    val_main_v26 (F := Ideal) A x W b (ix2 p q) = aggregate A x W b 1 p q := by
  rw [val_main_v26_apply]
  unfold aggregate
  exact Finset.sum_congr rfl fun j _ => by rw [gather_lidx, gather_ridx, adj_apply, support_apply]

/-- The rectified aggregate: the maximum with the zero word, which denotes 0. -/
theorem relu_apply (p : Fin 4096) (q : Fin 128) :
    val_main_v27 (F := Ideal) A x W b (ix2 p q) = max (aggregate A x W b 1 p q) 0 := by
  rw [val_main_v27_apply, val_main_call1_v0_apply, val_main_call1_cst_apply, aggregate_apply,
    Ideal.maximumf_def, Ideal.ofBits_def, Ideal.ofBits_zero_f32]

end Cert.Gcn.Reference.Edge1

end
-- ==== Proof.GcnBranch2.lean ====
/-
  Edge type 2 of the reference, stage by stage, at node p and channel q.

  The reference takes the third slice of the features, of the weights, of the biases and of the adjacency tensor,
  drops the unit axis of each, and computes
      relu (A_2 · (x_2 · W_2 + b_2)).
  Each layout operation reads one entry of an argument array; the only arithmetic in the index equations is that a
  row-major position r·n + c with c < n has quotient r and remainder c.  The two contractions are sums over the
  contracted coordinate of the operands' products, so the dense layer with its bias is the specification's support,
  its product with the adjacency slice is the aggregate, and the maximum with the zero constant is the rectified
  aggregate.
-/
import proofs.«142835_g51436528337343_cont_8to1c4_445_16_alg».proof.Defs
import proofs.«142835_g51436528337343_cont_8to1c4_445_16_alg».proof.Proof.Gen.ReferenceIdeal.Read
import proofs.«142835_g51436528337343_cont_8to1c4_445_16_alg».proof.Proof.GcnSpec

noncomputable section

open scoped BigOperators

namespace Cert.Gcn.Reference.Edge2

open Idealize.ShloMosaic Idealize.ShloMosaic.ValueIdx Cert.ReferenceIdeal Cert.ReferenceIdeal.Gen Cert.ReferenceIdeal.Read

variable (A : AdjShape.Idx → EReal) (x : FeatShape.Idx → EReal) (W : WeightShape.Idx → EReal) (b : BiasShape.Idx → EReal)

/-! ### Where the layout operations read the argument arrays -/

/-- Row `p`, column `j` of the adjacency slice of this edge type, reshaped to a matrix, is entry `(2, p, j)` of the adjacency tensor. -/
theorem adj_idx (p j : Fin 4096) : idx_main_v38 (idx_main_v39 (ix2 p j)) = ix3 (2 : Fin 3) p j := by
  funext a; apply Fin.ext
  match a with
  | ⟨0, _⟩ => rfl
  | ⟨1, _⟩ => show (p.val * 4096 + j.val) / 4096 % 4096 = p.val; omega
  | ⟨2, _⟩ => show (p.val * 4096 + j.val) % 4096 = j.val; omega

/-- Row `p`, channel `k` of the feature slice of this edge type, reshaped to a matrix, is entry `(p, 2, k)` of the features. -/
theorem feat_idx (p : Fin 4096) (k : Fin 128) : idx_main_v28 (idx_main_v29 (ix2 p k)) = ix3 p (2 : Fin 3) k := by
  funext a; apply Fin.ext
  match a with
  | ⟨0, _⟩ => show (p.val * 128 + k.val) / 128 = p.val; omega
  | ⟨1, _⟩ => rfl
  | ⟨2, _⟩ => show (p.val * 128 + k.val) % 128 = k.val; omega

/-- Row `k`, column `q` of the weight slice of this edge type, reshaped to a matrix, is entry `(2, k, q)` of the weights. -/
theorem weight_idx (k q : Fin 128) : idx_main_v30 (idx_main_v31 (ix2 k q)) = ix3 (2 : Fin 3) k q := by
  funext a; apply Fin.ext
  match a with
  | ⟨0, _⟩ => rfl
  | ⟨1, _⟩ => show (k.val * 128 + q.val) / 128 % 128 = k.val; omega
  | ⟨2, _⟩ => show (k.val * 128 + q.val) % 128 = q.val; omega

/-- The bias row of this edge type, broadcast over the nodes, holds entry `(2, q)` of the biases at every node. -/
theorem bias_idx (p : Fin 4096) (q : Fin 128) :
    idx_main_v33 (idx_main_v34 (idx_main_v35 (idx_main_v36 (ix2 p q)))) = ix2 (2 : Fin 3) q := by
  funext a; apply Fin.ext
  match a with
  | ⟨0, _⟩ => rfl
  | ⟨1, _⟩ => show q.val % 128 = q.val; omega

theorem adj_apply (p j : Fin 4096) : val_main_v39 (F := Ideal) A (ix2 p j) = A (ix3 2 p j) := by
  rw [val_main_v39_apply, val_main_v38_apply, adj_idx]

theorem feat_apply (p : Fin 4096) (k : Fin 128) : val_main_v29 (F := Ideal) x (ix2 p k) = x (ix3 p 2 k) := by
  rw [val_main_v29_apply, val_main_v28_apply, feat_idx]

theorem weight_apply (k q : Fin 128) : val_main_v31 (F := Ideal) W (ix2 k q) = W (ix3 2 k q) := by
  rw [val_main_v31_apply, val_main_v30_apply, weight_idx]

theorem bias_apply (p : Fin 4096) (q : Fin 128) : val_main_v36 (F := Ideal) b (ix2 p q) = b (ix2 2 q) := by
  rw [val_main_v36_apply, val_main_v35_apply, val_main_v34_apply, val_main_v33_apply, bias_idx]

/-! ### The two contractions' operand indices -/

theorem dense_lidx (p : Fin 4096) (q k : Fin 128) : lidx_main_v32 (ix2 p q) k = ix2 p k := by
  funext a; match a with
  | ⟨0, _⟩ => rfl
  | ⟨1, _⟩ => rfl

theorem dense_ridx (p : Fin 4096) (q k : Fin 128) : ridx_main_v32 (ix2 p q) k = ix2 k q := by
  funext a; match a with
  | ⟨0, _⟩ => rfl
  | ⟨1, _⟩ => rfl

theorem gather_lidx (p : Fin 4096) (q : Fin 128) (j : Fin 4096) : lidx_main_v40 (ix2 p q) j = ix2 p j := by
  funext a; match a with
  | ⟨0, _⟩ => rfl
  | ⟨1, _⟩ => rfl

theorem gather_ridx (p : Fin 4096) (q : Fin 128) (j : Fin 4096) : ridx_main_v40 (ix2 p q) j = ix2 j q := by
  funext a; match a with
  | ⟨0, _⟩ => rfl
  | ⟨1, _⟩ => rfl

/-! ### The stages of this edge type, read at node `p`, channel `q` -/

/-- The dense layer plus its bias is the specification's support. -/
theorem support_apply (p : Fin 4096) (q : Fin 128) :
    val_main_v37 (F := Ideal) x W b (ix2 p q) = support x W b 2 p q := by
  rw [val_main_v37_apply, val_main_v32_apply, bias_apply, Ideal.addf_def]
  unfold support
  congr 1
  exact Finset.sum_congr rfl fun k _ => by rw [dense_lidx, dense_ridx, feat_apply, weight_apply]

/-- The product with the adjacency slice is the specification's aggregate. -/
theorem aggregate_apply (p : Fin 4096) (q : Fin 128) :
    val_main_v40 (F := Ideal) A x W b (ix2 p q) = aggregate A x W b 2 p q := by
  rw [val_main_v40_apply]
  unfold aggregate
  exact Finset.sum_congr rfl fun j _ => by rw [gather_lidx, gather_ridx, adj_apply, support_apply]

/-- The rectified aggregate: the maximum with the zero word, which denotes 0. -/
theorem relu_apply (p : Fin 4096) (q : Fin 128) :
    val_main_v41 (F := Ideal) A x W b (ix2 p q) = max (aggregate A x W b 2 p q) 0 := by
  rw [val_main_v41_apply, val_main_call2_v0_apply, val_main_call2_cst_apply, aggregate_apply,
    Ideal.maximumf_def, Ideal.ofBits_def, Ideal.ofBits_zero_f32]

end Cert.Gcn.Reference.Edge2

end
-- ==== Proof.GcnStack.lean ====
/-
  The last three stages of the reference: the stack, its sum, and the quotient by 3.

  The three rectified aggregates, each given a unit middle axis, are joined along that axis into a [4096, 3, 128]
  array.  The joined axis has extents 1, 1, 1, so middle coordinate t falls in piece t at offset 0, and entry
  (p, t, q) of the stack is entry (p, q) of the rectified aggregate of edge type t.  The sum over the middle axis
  starts from the zero constant and adds the slots in the order 0, 1, 2; the result is divided entrywise by the
  constant whose word denotes the real 3.
-/
import proofs.«142835_g51436528337343_cont_8to1c4_445_16_alg».proof.Defs
import proofs.«142835_g51436528337343_cont_8to1c4_445_16_alg».proof.Proof.Gen.ReferenceIdeal.Read
import proofs.«142835_g51436528337343_cont_8to1c4_445_16_alg».proof.Proof.GcnMean

noncomputable section

open scoped BigOperators

namespace Cert.Gcn.Reference

open Idealize.ShloMosaic Idealize.ShloMosaic.ValueIdx Cert.ReferenceIdeal Cert.ReferenceIdeal.Gen Cert.ReferenceIdeal.Read

variable (A : (⟨S3x4096x4096, .f32⟩ : BufTy).Contents (Elt Ideal)) (x : (⟨S4096x3x128, .f32⟩ : BufTy).Contents (Elt Ideal))
  (W : (⟨S3x128x128, .f32⟩ : BufTy).Contents (Elt Ideal)) (b : (⟨S3x128, .f32⟩ : BufTy).Contents (Elt Ideal))

/-! ### Three [4096, 1, 128] arrays joined along the middle axis -/

theorem cat0 (y0 y1 y2 : S4096x1x128.Idx → EReal) (p : Fin 4096) (q : Fin 128) :
    concatenate S4096x3x128 1 [⟨S4096x1x128, y0⟩, ⟨S4096x1x128, y1⟩, ⟨S4096x1x128, y2⟩]
      concatenates_S4096x1x128_S4096x1x128_S4096x1x128_S4096x3x128_d1 (ix3 p (0 : Fin 3) q) = y0 (ix3 p (0 : Fin 1) q) := by
  refine concatenate_apply_piece (t := S4096x3x128) 1 [⟨S4096x1x128, y0⟩, ⟨S4096x1x128, y1⟩, ⟨S4096x1x128, y2⟩]
    concatenates_S4096x1x128_S4096x1x128_S4096x1x128_S4096x3x128_d1 (ix3 p (0 : Fin 3) q) 0 (by show 0 < 3; omega) S4096x1x128 y0 rfl rfl 0 rfl
    (ix3 p (0 : Fin 1) q) ?_ rfl
  intro b
  match b with
  | ⟨0, _⟩ => exact fun _ => rfl
  | ⟨1, _⟩ => exact fun h => absurd rfl h
  | ⟨2, _⟩ => exact fun _ => rfl

theorem cat1 (y0 y1 y2 : S4096x1x128.Idx → EReal) (p : Fin 4096) (q : Fin 128) :
    concatenate S4096x3x128 1 [⟨S4096x1x128, y0⟩, ⟨S4096x1x128, y1⟩, ⟨S4096x1x128, y2⟩]
      concatenates_S4096x1x128_S4096x1x128_S4096x1x128_S4096x3x128_d1 (ix3 p (1 : Fin 3) q) = y1 (ix3 p (0 : Fin 1) q) := by
  refine concatenate_apply_piece (t := S4096x3x128) 1 [⟨S4096x1x128, y0⟩, ⟨S4096x1x128, y1⟩, ⟨S4096x1x128, y2⟩]
    concatenates_S4096x1x128_S4096x1x128_S4096x1x128_S4096x3x128_d1 (ix3 p (1 : Fin 3) q) 1 (by show 1 < 3; omega) S4096x1x128 y1 rfl rfl 1 rfl
    (ix3 p (0 : Fin 1) q) ?_ rfl
  intro b
  match b with
  | ⟨0, _⟩ => exact fun _ => rfl
  | ⟨1, _⟩ => exact fun h => absurd rfl h
  | ⟨2, _⟩ => exact fun _ => rfl

theorem cat2 (y0 y1 y2 : S4096x1x128.Idx → EReal) (p : Fin 4096) (q : Fin 128) :
    concatenate S4096x3x128 1 [⟨S4096x1x128, y0⟩, ⟨S4096x1x128, y1⟩, ⟨S4096x1x128, y2⟩]
      concatenates_S4096x1x128_S4096x1x128_S4096x1x128_S4096x3x128_d1 (ix3 p (2 : Fin 3) q) = y2 (ix3 p (0 : Fin 1) q) := by
  refine concatenate_apply_piece (t := S4096x3x128) 1 [⟨S4096x1x128, y0⟩, ⟨S4096x1x128, y1⟩, ⟨S4096x1x128, y2⟩]
    concatenates_S4096x1x128_S4096x1x128_S4096x1x128_S4096x3x128_d1 (ix3 p (2 : Fin 3) q) 2 (by show 2 < 3; omega) S4096x1x128 y2 rfl rfl 2 rfl
    (ix3 p (0 : Fin 1) q) ?_ rfl
  intro b
  match b with
  | ⟨0, _⟩ => exact fun _ => rfl
  | ⟨1, _⟩ => exact fun h => absurd rfl h
  | ⟨2, _⟩ => exact fun _ => rfl

/-! ### The stacked array, its sum over the middle axis, and the quotient by 3 -/

/-- A [4096, 128] array given a unit middle axis is read at its node and channel. -/
theorem unit_axis_idx0 (p : Fin 4096) (q : Fin 128) : idx_main_v42 (ix3 p (0 : Fin 1) q) = ix2 p q := by
  funext a; match a with
  | ⟨0, _⟩ => rfl
  | ⟨1, _⟩ => rfl

theorem unit_axis_idx1 (p : Fin 4096) (q : Fin 128) : idx_main_v43 (ix3 p (0 : Fin 1) q) = ix2 p q := by
  funext a; match a with
  | ⟨0, _⟩ => rfl
  | ⟨1, _⟩ => rfl

theorem unit_axis_idx2 (p : Fin 4096) (q : Fin 128) : idx_main_v44 (ix3 p (0 : Fin 1) q) = ix2 p q := by
  funext a; match a with
  | ⟨0, _⟩ => rfl
  | ⟨1, _⟩ => rfl

/-- The sum over the middle axis visits the entries `(p, k, q)`. -/
theorem middle_idx (p : Fin 4096) (q : Fin 128) (k : Fin 3) : idx_main_v46 (ix2 p q) k = ix3 p k q := by
  funext a; match a with
  | ⟨0, _⟩ => rfl
  | ⟨1, _⟩ => rfl
  | ⟨2, _⟩ => rfl

/-- Slot 0 of the stack is the rectified aggregate of edge type 0. -/
theorem stack_apply0 (p : Fin 4096) (q : Fin 128) :
    val_main_v45 (F := Ideal) A x W b (ix3 p (0 : Fin 3) q) = val_main_v13 (F := Ideal) A x W b (ix2 p q) := by
  unfold val_main_v45
  rw [cat0, val_main_v42_apply, unit_axis_idx0]

/-- Slot 1 of the stack is the rectified aggregate of edge type 1. -/
theorem stack_apply1 (p : Fin 4096) (q : Fin 128) :
    val_main_v45 (F := Ideal) A x W b (ix3 p (1 : Fin 3) q) = val_main_v27 (F := Ideal) A x W b (ix2 p q) := by
  unfold val_main_v45
  rw [cat1, val_main_v43_apply, unit_axis_idx1]

/-- Slot 2 of the stack is the rectified aggregate of edge type 2. -/
theorem stack_apply2 (p : Fin 4096) (q : Fin 128) :
    val_main_v45 (F := Ideal) A x W b (ix3 p (2 : Fin 3) q) = val_main_v41 (F := Ideal) A x W b (ix2 p q) := by
  unfold val_main_v45
  rw [cat2, val_main_v44_apply, unit_axis_idx2]

/-- The reference's result at node `p`, channel `q`: zero plus the three rectified aggregates, added in the order of
    the edge types, divided by the real 3. -/
theorem mean_apply (p : Fin 4096) (q : Fin 128) :
    val_main_v48 (F := Ideal) A x W b (ix2 p q)
      = Ideal.div (0 + ((val_main_v13 (F := Ideal) A x W b (ix2 p q) + val_main_v27 (F := Ideal) A x W b (ix2 p q))
          + val_main_v41 (F := Ideal) A x W b (ix2 p q))) ((3 : ℝ) : EReal) := by
  rw [val_main_v48_apply, val_main_v47_apply, val_main_cst_0_apply, val_main_v46_apply, val_main_cst_apply,
    Fin.sum_univ_three, middle_idx, middle_idx, middle_idx, stack_apply0, stack_apply1, stack_apply2,
    Ideal.hostDivf_def, Ideal.ofBits_def, Ideal.ofBits_def, Ideal.ofBits_zero_f32, ofBits_three]

end Cert.Gcn.Reference

end
-- ==== Proof.GcnReference.lean ====
/-
  The reference program computes the specification.

  Index by index, at node p and channel q: the reference's result is zero plus the three rectified aggregates,
  added in the order of the edge types, divided by the real 3; each rectified aggregate is the maximum of the
  specification's aggregate with 0; and the quotient of such a total by 3 is the sum of the three thirds in the same
  order, which is the specification's value.  Every execution of the reference ends with its result buffer at this
  function of the four argument arrays, and the arguments unchanged.
-/
import proofs.«142835_g51436528337343_cont_8to1c4_445_16_alg».proof.Defs
import proofs.«142835_g51436528337343_cont_8to1c4_445_16_alg».proof.Proof.Gen.ReferenceIdeal.Run
import proofs.«142835_g51436528337343_cont_8to1c4_445_16_alg».proof.Proof.Gen.ReferenceIdeal.Read
import proofs.«142835_g51436528337343_cont_8to1c4_445_16_alg».proof.Proof.GcnSpec
import proofs.«142835_g51436528337343_cont_8to1c4_445_16_alg».proof.Proof.GcnMean
import proofs.«142835_g51436528337343_cont_8to1c4_445_16_alg».proof.Proof.GcnBranch0
import proofs.«142835_g51436528337343_cont_8to1c4_445_16_alg».proof.Proof.GcnBranch1
import proofs.«142835_g51436528337343_cont_8to1c4_445_16_alg».proof.Proof.GcnBranch2
import proofs.«142835_g51436528337343_cont_8to1c4_445_16_alg».proof.Proof.GcnStack

noncomputable section

namespace Cert.Gcn.Reference

open Idealize.ShloMosaic Idealize.ShloMosaic.TcCoe Idealize.SL.Sem Idealize.ShloMosaic.ValueIdx
open Cert.ReferenceIdeal Cert.ReferenceIdeal.Gen Cert.ReferenceIdeal.Read

/-- The reference's last stage is the specification, as functions of the four argument arrays. -/
theorem reference_eq (A : AdjShape.Idx → EReal) (x : FeatShape.Idx → EReal) (W : WeightShape.Idx → EReal)
    (b : BiasShape.Idx → EReal) :
    val_main_v48 (F := Ideal) A x W b = gcn A x W b := by
  funext i
  obtain ⟨p, q, rfl⟩ : ∃ (p : Fin 4096) (q : Fin 128), i = ix2 p q := ⟨i 0, i 1, eq_ix2 i⟩
  rw [mean_apply, Edge0.relu_apply, Edge1.relu_apply, Edge2.relu_apply, mean_three, gcn_apply]
  rfl

/-- Every weakly fair execution of the reference terminates with its result buffer at the specification of the
    argument arrays' launch contents, and the argument arrays unchanged. -/
theorem run_gcn (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v48)
          = Cert.Gcn.gcn (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v48_eq _ _ _ _).trans (reference_eq _ _ _ _)), (h c).2⟩)
    (Cert.ReferenceIdeal.Value.run (F := Ideal) m ρ)

end Cert.Gcn.Reference

end
-- ==== Proof.lean ====
/-
  A fused graph-convolution kernel against its reference: f = mean over three edge types t of
  relu(A_t · (x_t · W_t + b_t)), over 4096 nodes and 128 channels.

  The kernel walks a grid of (row block, edge type), edge type innermost. In the first row block it computes each
  edge type's dense layer x_t · W_t + b_t once and keeps it in a scratch buffer for all later row blocks; at every
  point it multiplies one 512-row block of the adjacency matrix into that layer, rectifies, scales by one third, and
  either initialises the output block (edge type 0) or adds to it (edge types 1, 2). The reference stacks the three
  rectified products, sums them over the stacking axis and divides by three.

  Over the extended reals the two agree without any finiteness assumption: a division by the real 3 is the
  product with the real 1/3, which is what the kernel's named constant denotes, and that product distributes over
  the sum of three terms. The frames: the kernel's body is run in each of the four ways the grid meets it, with an
  invariant that records which dense layers the scratch keeps so far; the reference's frame is its run with the
  result dropped. The one rewrite of the idealization, naming the constant one third, is its rule's statement.
-/
import proofs.«142835_g51436528337343_cont_8to1c4_445_16_alg».proof.Defs
import proofs.«142835_g51436528337343_cont_8to1c4_445_16_alg».proof.Proof.Gen.Kernel
import proofs.«142835_g51436528337343_cont_8to1c4_445_16_alg».proof.Proof.Gen.KernelIdeal
import proofs.«142835_g51436528337343_cont_8to1c4_445_16_alg».proof.Proof.Gen.ReferenceIdeal
import proofs.«142835_g51436528337343_cont_8to1c4_445_16_alg».proof.Proof.Gen.Pre_finite_inputs
import proofs.«142835_g51436528337343_cont_8to1c4_445_16_alg».proof.Proof.GcnBitsRun
import proofs.«142835_g51436528337343_cont_8to1c4_445_16_alg».proof.Proof.GcnIdealValue
import proofs.«142835_g51436528337343_cont_8to1c4_445_16_alg».proof.Proof.GcnReference
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the idealized reference: its run with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gcn.Reference.run_gcn m ρ)

/-- The idealization's one rewrite: the constant 0.33333334 is read as the real one third. -/
theorem preserves : Cert.preserves_Kernel_KernelIdeal :=
  IdealRules.named_const.statement Cert.KernelIdeal.κ "inv_3" .f32 0x3EAAAAAB#32 ((1 / 3 : ℝ) : EReal) rfl

/-- From memories that agree on the arguments both idealized programs end with the same result array: the
    specification's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Body.run_gcn m ρ, ?_⟩
  refine (θ_run Cert.ReferenceIdeal.defs _ _).mono (fun _ h c => ⟨(h c).1.trans ?_, (h c).2⟩)
    (Cert.Gcn.Reference.run_gcn m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
